-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x1024 : Shape := ⟨2, ![8192, 1024]⟩
abbrev S1024x1024 : Shape := ⟨2, ![1024, 1024]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .bf16⟩
  | .hbm, ⟨7, _⟩ => ⟨S8192x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_22 : BitVec 32 := 0#32
  let v42 : BitVec 1 := Scalar.cmpi .ne v41 c0_i32_22
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S8192x1024.size a
  hwx1_4 : ∀ i : grid1.Coords, EltTy.bits .f32 = 32 ∨ (Rect.block (s := S8192x1024) S512x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Bits.Region0.lean ====
/-
  Region 0 (the key and value projections) as a pipeline: what its body leaves at every grid point.

  Grid point `t` (of 16) stages rows `512 t … 512 t + 511` of the key input and of the value input, and the two
  weight matrices whole; the body stores, into the two output blocks, the matrix products of the input blocks with
  the weights. Stated at any float instance and at any contents `V` of the core's buffers when the region is entered.
-/
import proofs.«128656_j27453430956590_2_alg».proof.Proof.Gen.Kernel.Launch
import proofs.«128656_j27453430956590_2_alg».proof.Proof.Gen.Kernel.Skeleton
import proofs.«128656_j27453430956590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: unfetched, the block
    index has not moved. One statement per input window (the key block, the key weights, the value block, the value weights). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole 512×1024 block and the whole 1024×1024 block, as rectangles. -/
abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- The key projection's output block after the body: the product of the key block with the key weights. -/
def out0_4 (x0 : Vec F S512x1024 .f32) (x1 : Vec F S1024x1024 .f32) : Vec F S512x1024 .bf16 :=
  View.canon [⟨rA, k0_pay1 (View.ld x0 rA) (View.ld x1 rW)⟩]
/-- The value projection's output block after the body. -/
def out0_5 (x2 : Vec F S512x1024 .f32) (x3 : Vec F S1024x1024 .f32) : Vec F S512x1024 .bf16 :=
  View.canon [⟨rA, k0_pay2 (View.ld x2 rA) (View.ld x3 rW)⟩]

/-- One whole-block store covers the block. -/
theorem coverA (p0 : Vec F S512x1024 .bf16) (y : S512x1024.Idx) :
    ∃ pc ∈ ([⟨rA, p0⟩] : List (View.Piece (Elt F) S512x1024 .bf16)), y ∈ pc.1.set :=
  View.cover_of_tiled [⟨rA, p0⟩] S512x1024.size (by rfl) y

set_option maxHeartbeats 4000000 in
/-- The body on whole staging memrefs: the four inputs at read contents and the two outputs at anything run to the
    inputs as they were and each output at its product. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S512x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x1024 .f32) (x2 : Vec F S512x1024 .f32) (x3 : Vec F S1024x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x2 x3)) -∗ K ⟨⟩))
      ⊢ wp frame (wpE (defs₀ (F := F)) Variants.none c none) E (cc0__proj_kv_kernel i arg1 harg1 arg2 harg2 arg3 harg3 arg4 harg4 arg5 harg5 arg6 harg6) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA _)
  iexists _; isplitr
  swap; · iexact H5
  ipureintro
  exact View.read_writes_eq_canon _ _ _ (coverA _)

/-! ## The proof data -/

/-- Region 0's proof data on core `c`: the arrays as the region finds them; after the body at point `t` each input's
    buffer at its block and each output's at the product of the point's blocks; the invariant only the buffers the region
    does not use and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.Bits.FlashRec.lean ====
/-
  The flash kernel's scratch recursion as pure functions.

  One query tile (512 rows) sweeps the eight key/value tiles (1024 rows each). The kernel keeps, between
  grid points, a running row maximum `m`, a running normaliser `l` and an unnormalised accumulator `acc`, and
  the projected query tile `qs` cached at the first key/value tile. `step` is what one key/value tile does to
  `(m, l, acc)`: with `s` the scaled scores of the tile, `m' = max m (rowmax s)`, `a = exp (m - m')`,
  `p = exp (s - m')`, `l' = a * l + rowsum p`, `acc' = a * acc + p · V`. `sweep` folds the eight tiles from the
  reset state, and `out` divides the accumulator by the normaliser. Everything is stated over the kernel's own
  payload functions, at any float instance.
-/
import proofs.«128656_j27453430956590_2_alg».proof.Proof.Gen.Kernel.Skeleton

noncomputable section

namespace Cert.Kernel.Flash

open Idealize.ShloMosaic Idealize.SL.Sem Cert.Kernel Cert.Kernel.Gen

variable {F : FTy → Type} [FloatOps F]

/-- The scratch carried between key/value tiles: running maximum, running normaliser, accumulator. -/
structure St (F : FTy → Type) where
  m : Vec F S512x1 .f32
  l : Vec F S512x1 .f32
  acc : Vec F S512x1024 .f32

/-- The state the first key/value tile resets the scratch to: maximum -∞, normaliser 0, accumulator 0. -/
def reset : St F := ⟨k1_pay4 (F := F), k1_pay5 (F := F), k1_pay6 (F := F)⟩

/-- One key/value tile `(kb, vb)` against the cached projected query tile `qs`. -/
def step (qs : Vec F S512x1024 .bf16) (kb vb : Vec F S1024x1024 .bf16) (s : St F) : St F :=
  ⟨k1_pay2 (k1_pay9 qs kb s.m), k1_pay12 qs kb s.m s.l, k1_pay1 (k1_pay13 qs kb vb s.m s.acc)⟩

/-- The scratch after the first `n` key/value tiles. -/
def sweep (qs : Vec F S512x1024 .bf16) (kb vb : Fin 8 → Vec F S1024x1024 .bf16) : (n : ℕ) → St F
  | 0 => reset
  | n + 1 => if h : n < 8 then step qs (kb ⟨n, h⟩) (vb ⟨n, h⟩) (sweep qs kb vb n) else sweep qs kb vb n

/-- What the last key/value tile writes to the output block: accumulator over normaliser, after all eight tiles. -/
def out (qs : Vec F S512x1024 .bf16) (kb vb : Fin 8 → Vec F S1024x1024 .bf16) : Vec F S512x1024 .f32 :=
  k1_pay3 (sweep qs kb vb 8).acc (sweep qs kb vb 8).l

/-- The projected query tile the first key/value tile caches: the query block times the query weights. -/
def qproj (qb : Vec F S512x1024 .f32) (wq : Vec F S1024x1024 .f32) : Vec F S512x1024 .bf16 := k1_pay7 qb wq

end Cert.Kernel.Flash

end
-- ==== Proof.Bits.Region1Defs.lean ====
/-
  Region 1 (the flash kernel) as a pipeline, first part: the windows' blocks, the two branch conditions of the body in
  closed form over the 16 × 8 grid (the reset at the first key/value tile, the division at the last), and where the output
  window is idle.
-/
import proofs.«128656_j27453430956590_2_alg».proof.Proof.Gen.Kernel.Launch
import proofs.«128656_j27453430956590_2_alg».proof.Proof.Gen.Kernel.Skeleton
import proofs.«128656_j27453430956590_2_alg».proof.Proof.Gen.Kernel.Points
import proofs.«128656_j27453430956590_2_alg».proof.Proof.Bits.FlashRec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not: unfetched, the block
    index has not moved (the query block moves every eighth point, the query weights never, the key and value blocks at
    every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first `scf.if` of the body: this is the first key/value tile of the query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second: this is the last key/value tile of the query tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key/value tile the body stores nothing into the output block and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The scratch operands -/

/-- The four scratch buffers, as whole memrefs: the running maximum, the running normaliser, the accumulator, the cached
    projected query tile. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev scQ : Memref sig .tc .vmem S512x1024 .bf16 := Memref.whole cc1_scratch3

end Cert.Kernel.Fr

end
-- ==== Proof.Bits.Region1Body.lean ====
/-
  Region 1 (the flash kernel): the body's triple in its three cases.

  At the first key/value tile of a query tile the body resets the running maximum, normaliser and accumulator, caches the
  projected query tile, and then does one online-softmax step; at the tiles in between it does the step on what the tile
  before left; at the last tile it does the step and stores accumulator over normaliser into the output block. In every
  case the scratch ends at `Flash.step` of what it started the step from.
-/
import proofs.«128656_j27453430956590_2_alg».proof.Proof.Bits.Region1Defs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offset of a whole block of a rank-2 shape is zero on both axes. -/
theorem hz2 : (![0, 0] : Fin 2 → ℕ) = fun _ => 0 := by funext a; fin_cases a <;> rfl

/-- A store of the whole block, last in the list, covers the block. -/
theorem cover_head {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set := by
  subst h
  exact ⟨_, List.mem_cons_self .., by show y ∈ (Rect.whole S).set; rw [Rect.set_whole]; exact Finset.mem_univ y⟩

/-- A buffer whose last store wrote the whole block reads back as that store's payload, whatever came before. -/
theorem read_writes_head {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (cover_head h inb w L)).trans (View.canon_cons_unit_zero h inb w L)

set_option maxHeartbeats 8000000 in
/-- A key/value tile that is neither the first nor the last: one step on the scratch, the output block untouched. -/
theorem sound_kernel1_B (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole)
    (arg10 : Memref sig .tc .vmem S512x1024 .bf16) (harg10 : arg10.IsWhole)
    (hc0 : ¬cond1_0 i) (hc1 : ¬cond1_1 i)
    (x0 : Vec F S512x1024 .f32) (x1 : Vec F S1024x1024 .f32) (x2 : Vec F S1024x1024 .bf16) (x3 : Vec F S1024x1024 .bf16)
    (xi : Vec F S512x1024 .f32) (s0 s1 : Vec F S512x1 .f32) (s2 : Vec F S512x1024 .f32) (qs : Vec F S512x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ owns (c : Thread nD τ) arg7 fullShare s0 ∗ owns (c : Thread nD τ) arg8 fullShare s1
        ∗ owns (c : Thread nD τ) arg9 fullShare s2 ∗ owns (c : Thread nD τ) arg10 fullShare qs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (Flash.step qs x2 x3 ⟨s0, s1, s2⟩).m ∗ owns (c : Thread nD τ) arg8 fullShare (Flash.step qs x2 x3 ⟨s0, s1, s2⟩).l
            ∗ owns (c : Thread nD τ) arg9 fullShare (Flash.step qs x2 x3 ⟨s0, s1, s2⟩).acc ∗ owns (c : Thread nD τ) arg10 fullShare qs) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9 arg10 harg10) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, ⟨%g3, %hg3, G3⟩, Hk⟩
  subst hf0; subst hf1; subst hf2; subst hf3; subst hf4; subst hg0; subst hg1; subst hg2; subst hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [G0]
  · iexists _; isplitr
    swap; · iexact G0
    ipureintro
    refine (read_writes_head _ _ hz2 _ _ _).trans ?_
    simp only [View.readAt_eq_ld, View.ld_unit_zero (S := S512x1024) hz2, View.ld_unit_zero (S := S1024x1024) hz2, View.ld_unit_zero (S := S512x1) hz2]
    rfl
  isplitl [G1]
  · iexists _; isplitr
    swap; · iexact G1
    ipureintro
    refine (read_writes_head _ _ hz2 _ _ _).trans ?_
    simp only [View.readAt_eq_ld, View.ld_unit_zero (S := S512x1024) hz2, View.ld_unit_zero (S := S1024x1024) hz2, View.ld_unit_zero (S := S512x1) hz2]
    rfl
  isplitl [G2]
  · iexists _; isplitr
    swap; · iexact G2
    ipureintro
    refine (read_writes_head _ _ hz2 _ _ _).trans ?_
    simp only [View.readAt_eq_ld, View.ld_unit_zero (S := S512x1024) hz2, View.ld_unit_zero (S := S1024x1024) hz2, View.ld_unit_zero (S := S512x1) hz2]
    rfl
  iexists g3; isplitr; · ipureintro; rfl
  iexact G3

set_option maxHeartbeats 8000000 in
/-- The first key/value tile of a query tile: whatever the scratch held, it ends at one step from the reset state, with the
    projected query tile cached; the output block untouched. -/
theorem sound_kernel1_A (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole)
    (arg10 : Memref sig .tc .vmem S512x1024 .bf16) (harg10 : arg10.IsWhole)
    (hc0 : cond1_0 i) (hc1 : ¬cond1_1 i)
    (x0 : Vec F S512x1024 .f32) (x1 : Vec F S1024x1024 .f32) (x2 : Vec F S1024x1024 .bf16) (x3 : Vec F S1024x1024 .bf16)
    (xi : Vec F S512x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (Flash.step (Flash.qproj x0 x1) x2 x3 Flash.reset).m ∗ owns (c : Thread nD τ) arg8 fullShare (Flash.step (Flash.qproj x0 x1) x2 x3 Flash.reset).l
            ∗ owns (c : Thread nD τ) arg9 fullShare (Flash.step (Flash.qproj x0 x1) x2 x3 Flash.reset).acc ∗ owns (c : Thread nD τ) arg10 fullShare (Flash.qproj x0 x1)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9 arg10 harg10) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%e0, %g0, -, G0⟩, ⟨%e1, %g1, -, G1⟩, ⟨%e2, %g2, -, G2⟩, ⟨%e3, %g3, -, G3⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [G0]
  · iexists _; isplitr
    swap; · iexact G0
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G1]
  · iexists _; isplitr
    swap; · iexact G1
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G2]
  · iexists _; isplitr
    swap; · iexact G2
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  iexists _; isplitr
  swap; · iexact G3
  ipureintro
  sl_unfold_run_names
  refine (read_writes_head _ _ hz2 _ _ _).trans ?_
  simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
  rfl

set_option maxHeartbeats 8000000 in
/-- The last key/value tile of a query tile: one step on the scratch, and the output block ends at accumulator over
    normaliser of the stepped scratch. -/
theorem sound_kernel1_C (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole)
    (arg10 : Memref sig .tc .vmem S512x1024 .bf16) (harg10 : arg10.IsWhole)
    (hc0 : ¬cond1_0 i) (hc1 : cond1_1 i)
    (x0 : Vec F S512x1024 .f32) (x1 : Vec F S1024x1024 .f32) (x2 : Vec F S1024x1024 .bf16) (x3 : Vec F S1024x1024 .bf16)
    (s0 s1 : Vec F S512x1 .f32) (s2 : Vec F S512x1024 .f32) (qs : Vec F S512x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare s0 ∗ owns (c : Thread nD τ) arg8 fullShare s1
        ∗ owns (c : Thread nD τ) arg9 fullShare s2 ∗ owns (c : Thread nD τ) arg10 fullShare qs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k1_pay3 (Flash.step qs x2 x3 ⟨s0, s1, s2⟩).acc (Flash.step qs x2 x3 ⟨s0, s1, s2⟩).l)
            ∗ owns (c : Thread nD τ) arg7 fullShare (Flash.step qs x2 x3 ⟨s0, s1, s2⟩).m ∗ owns (c : Thread nD τ) arg8 fullShare (Flash.step qs x2 x3 ⟨s0, s1, s2⟩).l
            ∗ owns (c : Thread nD τ) arg9 fullShare (Flash.step qs x2 x3 ⟨s0, s1, s2⟩).acc ∗ owns (c : Thread nD τ) arg10 fullShare qs) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9 arg10 harg10) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, ⟨%g2, %hg2, G2⟩, ⟨%g3, %hg3, G3⟩, Hk⟩
  subst hf0; subst hf1; subst hf2; subst hf3; subst hg0; subst hg1; subst hg2; subst hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G0]
  · iexists _; isplitr
    swap; · iexact G0
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G1]
  · iexists _; isplitr
    swap; · iexact G1
    ipureintro
    sl_unfold_run_names
    refine (read_writes_head _ _ hz2 _ _ _).trans ?_
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G2]
  · iexists _; isplitr
    swap; · iexact G2
    ipureintro
    sl_unfold_run_names
    refine (read_writes_head _ _ hz2 _ _ _).trans ?_
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  iexists g3; isplitr; · ipureintro; rfl
  iexact G3

end Cert.Kernel.Fr

end
-- ==== Proof.Bits.Region1Dat.lean ====
/-
  Region 1 (the flash kernel): the proof data of its pipeline.

  The scratch after the body at grid position `n`: at the first key/value tile of a query tile, one online-softmax step from
  the reset state with the projected query tile freshly cached; otherwise one step on what position `n - 1` left, the cached
  tile unchanged. The output block after the body at a last key/value tile is accumulator over normaliser of that scratch.
  The invariant between grid points owns the four scratch buffers at exactly these contents (before the first point: at
  anything), beside region 0's staging buffers and the generator register, which the body never touches.
-/
import proofs.«128656_j27453430956590_2_alg».proof.Proof.Bits.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Region 0's ten staging buffers, which region 1 never touches, each whole at some contents. -/
def stg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The four scratch buffers at some contents, -/
def scrAny (c : Dev nD) : sProp 𝕄 :=
  iprop((∃ d, owns (c : Thread nD τ) scM fullShare d) ∗ (∃ d, owns (c : Thread nD τ) scL fullShare d)
    ∗ (∃ d, owns (c : Thread nD τ) scA fullShare d) ∗ (∃ d, owns (c : Thread nD τ) scQ fullShare d))
/-- and at named contents: running maximum, normaliser, accumulator, cached projected query tile. -/
def scrOwn (c : Dev nD) (s : Flash.St F) (qs : Vec F S512x1024 .bf16) : sProp 𝕄 :=
  iprop(owns (c : Thread nD τ) scM fullShare s.m ∗ owns (c : Thread nD τ) scL fullShare s.l
    ∗ owns (c : Thread nD τ) scA fullShare s.acc ∗ owns (c : Thread nD τ) scQ fullShare qs)

theorem scrOwn_any (c : Dev nD) (s : Flash.St F) (qs : Vec F S512x1024 .bf16) : scrOwn c s qs ⊢ (scrAny c : sProp 𝕄) := by
  unfold scrOwn scrAny
  iintro ⟨S0, S1, S2, S3⟩
  isplitl [S0]; · iexists _; iexact S0
  isplitl [S1]; · iexists _; iexact S1
  isplitl [S2]; · iexists _; iexact S2
  iexists _; iexact S3

/-- The scoped buffers region 1's pipeline does not stage are region 0's staging buffers and the four scratch buffers. -/
theorem PhiA1_eq (c : Dev nD) :
    (Pipeline.ΦA spec1 c : sProp 𝕄) = iprop(stg c ∗ scrAny c ∗ ∃ r, prngReg c r) := by
  have e : (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM fullShare d) ∗ (∃ d, owns (c : Thread nD τ) scL fullShare d) ∗ (∃ d, owns (c : Thread nD τ) scA fullShare d) ∗ (∃ d, owns (c : Thread nD τ) scQ fullShare d)) ∗ ∃ r, prngReg c r) := by
    unfold Pipeline.ΦA; rw [scopedRest1_eq]; simp only [scM, scL, scA, scQ, owns_whole]; try rfl
  rw [e]
  refine BI.equiv_iff.mp ⟨?_, ?_⟩
  · show (_ : sProp 𝕄) ⊢ _
    unfold stg scrAny
    iintro ⟨⟨A0, A1, A2, A3, A4, A5, A6, A7, A8, A9, S0, S1, S2, S3⟩, Hg⟩
    isplitl [A0 A1 A2 A3 A4 A5 A6 A7 A8 A9]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    isplitl [S0 S1 S2 S3]
    · isplitl [S0]; · iexact S0
      isplitl [S1]; · iexact S1
      isplitl [S2]; · iexact S2
      iexact S3
    iexact Hg
  · show (_ : sProp 𝕄) ⊢ _
    unfold stg scrAny
    iintro ⟨⟨A0, A1, A2, A3, A4, A5, A6, A7, A8, A9⟩, ⟨S0, S1, S2, S3⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [S0]; · iexact S0
      isplitl [S1]; · iexact S1
      isplitl [S2]; · iexact S2
      iexact S3
    iexact Hg

section Region1
variable (V : (c : Dev nD) → (b : Ref sig .tc) → Buf (Elt F) ((c : Thread nD τ).loc b))

/-- The scratch after the body at position `n`. -/
def scrAfter (c : Dev nD) : (n : ℕ) → n < cfg1.N → Flash.St F × Vec F S512x1024 .bf16
  | 0, hn => (Flash.step (Flash.qproj (iblk1 V c 0 ⟨0, hn⟩) (iblk1 V c 1 ⟨0, hn⟩)) (iblk1 V c 2 ⟨0, hn⟩) (iblk1 V c 3 ⟨0, hn⟩) Flash.reset, Flash.qproj (iblk1 V c 0 ⟨0, hn⟩) (iblk1 V c 1 ⟨0, hn⟩))
  | n + 1, hn =>
    if h : (n + 1) % 8 = 0 then
      (Flash.step (Flash.qproj (iblk1 V c 0 ⟨n + 1, hn⟩) (iblk1 V c 1 ⟨n + 1, hn⟩)) (iblk1 V c 2 ⟨n + 1, hn⟩) (iblk1 V c 3 ⟨n + 1, hn⟩) Flash.reset, Flash.qproj (iblk1 V c 0 ⟨n + 1, hn⟩) (iblk1 V c 1 ⟨n + 1, hn⟩))
    else
      (Flash.step (scrAfter c n (Nat.lt_of_succ_lt hn)).2 (iblk1 V c 2 ⟨n + 1, hn⟩) (iblk1 V c 3 ⟨n + 1, hn⟩) (scrAfter c n (Nat.lt_of_succ_lt hn)).1,
        (scrAfter c n (Nat.lt_of_succ_lt hn)).2)

/-- At the first key/value tile of a query tile: one step from the reset state. -/
theorem scrAfter_first (c : Dev nD) (t : Fin cfg1.N) (h : t.val % 8 = 0) :
    scrAfter V c t.val t.isLt = (Flash.step (Flash.qproj (iblk1 V c 0 t) (iblk1 V c 1 t)) (iblk1 V c 2 t) (iblk1 V c 3 t) Flash.reset, Flash.qproj (iblk1 V c 0 t) (iblk1 V c 1 t)) := by
  obtain ⟨n, hn⟩ := t
  cases n with
  | zero => rfl
  | succ n => exact dif_pos h

/-- At any other tile: one step on what the position before left. -/
theorem scrAfter_next (c : Dev nD) (t : Fin cfg1.N) (h : ¬t.val % 8 = 0) :
    scrAfter V c t.val t.isLt
      = (Flash.step (scrAfter V c (t.val - 1) (Nat.lt_of_le_of_lt (Nat.sub_le _ _) t.isLt)).2 (iblk1 V c 2 t) (iblk1 V c 3 t) (scrAfter V c (t.val - 1) (Nat.lt_of_le_of_lt (Nat.sub_le _ _) t.isLt)).1,
          (scrAfter V c (t.val - 1) (Nat.lt_of_le_of_lt (Nat.sub_le _ _) t.isLt)).2) := by
  obtain ⟨n, hn⟩ := t
  cases n with
  | zero => exact absurd (Nat.zero_mod _) h
  | succ n => exact dif_neg h

/-- The output block after the body at position `t` (stored at a last key/value tile): accumulator over normaliser. -/
def outAfter (c : Dev nD) (t : Fin cfg1.N) : Vec F S512x1024 .f32 :=
  k1_pay3 (scrAfter V c t.val t.isLt).1.acc (scrAfter V c t.val t.isLt).1.l

/-- The invariant before position `n`. -/
def PhiS (c : Dev nD) : (n : ℕ) → n ≤ cfg1.N → sProp 𝕄
  | 0, _ => Pipeline.ΦA spec1 c
  | n + 1, hn => iprop(stg c ∗ scrOwn c (scrAfter V c n hn).1 (scrAfter V c n hn).2 ∗ ∃ r, prngReg c r)

theorem PhiS_zero (c : Dev nD) (n : ℕ) (h : n ≤ cfg1.N) (hz : n = 0) : PhiS V c n h = Pipeline.ΦA spec1 c := by
  subst hz; rfl
theorem PhiS_succ (c : Dev nD) (n : ℕ) (hn : n + 1 ≤ cfg1.N) :
    PhiS V c (n + 1) hn = iprop(stg c ∗ scrOwn c (scrAfter V c n hn).1 (scrAfter V c n hn).2 ∗ ∃ r, prngReg c r) := rfl
theorem PhiS_pos (c : Dev nD) (n : ℕ) (h : n ≤ cfg1.N) (hz : n ≠ 0) :
    PhiS V c n h = iprop(stg c ∗ scrOwn c (scrAfter V c (n - 1) (by omega)).1 (scrAfter V c (n - 1) (by omega)).2 ∗ ∃ r, prngReg c r) := by
  cases n with
  | zero => exact absurd rfl hz
  | succ n => rfl

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAfter V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAfter V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

end Cert.Kernel.Fr

end
-- ==== Proof.Bits.Region1Obl.lean ====
/-
  Region 1 (the flash kernel): the body obligation at a generic grid point, by cases on the key/value tile — the first of
  its query tile (the scratch is reset, so whatever the invariant held is forgotten), one in between (the scratch steps from
  what the point before left), the last (it steps, and the output block is stored).
-/
import proofs.«128656_j27453430956590_2_alg».proof.Proof.Bits.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- Before any point the invariant holds region 0's staging buffers, the four scratch buffers at some contents and the
    generator register. -/
theorem PhiS_any (c : Dev nD) (n : ℕ) (h : n ≤ cfg1.N) :
    PhiS V c n h ⊢ (iprop(stg c ∗ ((∃ d, owns (c : Thread nD τ) scM fullShare d) ∗ (∃ d, owns (c : Thread nD τ) scL fullShare d)
      ∗ (∃ d, owns (c : Thread nD τ) scA fullShare d) ∗ (∃ d, owns (c : Thread nD τ) scQ fullShare d)) ∗ ∃ r, prngReg c r) : sProp 𝕄) := by
  have key : PhiS V c n h ⊢ (iprop(stg c ∗ scrAny c ∗ ∃ r, prngReg c r) : sProp 𝕄) := by
    by_cases hz : n = 0
    · rw [PhiS_zero V c n h hz, PhiA1_eq]
    · rw [PhiS_pos V c n h hz]
      iintro ⟨Hs, HS, Hg⟩
      isplitl [Hs]; · iexact Hs
      isplitl [HS]; · iapply scrOwn_any; iexact HS
      iexact Hg
  unfold scrAny at key
  exact key

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  have hN : t.val < 128 := lt_of_lt_of_eq t.isLt (show cfg1.N = 128 from N_1)
  rw [PhiS_castSucc V c t]
  by_cases h0 : t.val % 8 = 0
  · -- the first key/value tile of a query tile
    have h7 : ¬t.val % 8 = 7 := by omega
    have hc0 : cond1_0 (grid1.coords t) := (hcond1_0 t).mpr h0
    have hc1 : ¬cond1_1 (grid1.coords t) := fun h => h7 ((hcond1_1 t).mp h)
    rw [Dat.leavesExact_idle (dat1 V c) 4 t (idleAt1_4 t hc1) (noFlush1_4 t hc1)]
    rw [scrAfter_first V c t h0]
    (try dsimp only)
    iintro ⟨HΦ, Ho, ⟨%d0, H0⟩, ⟨%d1, H1⟩, ⟨%d2, H2⟩, ⟨%d3, H3⟩, ⟨%d4, H4⟩⟩
    ihave HΦ' := (PhiS_any V c t.val (Nat.le_of_lt t.isLt)) $$ HΦ
    icases HΦ' with ⟨Hs, ⟨S0, S1, S2, S3⟩, Hg⟩
    iapply (sound_kernel1_A c Set.univ (grid1.coords t) _ _ _ _ _ _ _ _ _ _ _ _ _ _ _ _ _ _ hc0 hc1 (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [Hs S0 S1 S2 S3 Hg]
    · isplitl [Hs]; · iexact Hs
      isplitl [S0 S1 S2 S3]
      · unfold scrOwn
        isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond1_0 (grid1.coords t) := fun h => h0 ((hcond1_0 t).mp h)
    rw [PhiS_pos V c _ _ hz]
    by_cases h7 : t.val % 8 = 7
    · -- the last key/value tile: the output block is stored
      have hc1 : cond1_1 (grid1.coords t) := (hcond1_1 t).mpr h7
      rw [show (dat1 V c).leavesExact 4 t = owns (c : Thread nD τ) (st1_4 t) fullShare ((dat1 V c).after 4 t) from by
          unfold Dat.leavesExact; rw [liveAt1_4 t hc1], after1_4]
      unfold outAfter
      rw [scrAfter_next V c t h0]
      (try dsimp only)
      unfold scrOwn
      iintro ⟨⟨Hs, ⟨S0, S1, S2, S3⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ _ _ _ _ hc0 hc1 (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      isplitl [S3]; · iexact S3
      iintro ⟨H0, H1, H2, H3, H4, S0, S1, S2, S3⟩
      isplitl [Hs S0 S1 S2 S3 Hg]
      · isplitl [Hs]; · iexact Hs
        isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexact H4
    · -- a key/value tile in between: the output block untouched
      have hc1 : ¬cond1_1 (grid1.coords t) := fun h => h7 ((hcond1_1 t).mp h)
      rw [Dat.leavesExact_idle (dat1 V c) 4 t (idleAt1_4 t hc1) (noFlush1_4 t hc1)]
      rw [scrAfter_next V c t h0]
      (try dsimp only)
      unfold scrOwn
      iintro ⟨⟨Hs, ⟨S0, S1, S2, S3⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ _ _ _ _ hc0 hc1 (iblk1 V c 0 t) (iblk1 V c 1 t) (iblk1 V c 2 t) (iblk1 V c 3 t) _ _ _ _ _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [Hs S0 S1 S2 S3 Hg]
      · isplitl [Hs]; · iexact Hs
        isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.Bits.FrameRun.lean ====
/-
  The run of the two regions from the launch to the return.

  The core's unscoped buffers: at launch as given; after region 0 the two projected arrays hold what its write-backs leave
  and everything else is as launched; after region 1 the result array holds what ITS write-backs leave, everything else as
  region 0 left it. No argument array is written by either region. Every weakly fair execution terminates with every
  unscoped buffer at these last contents.
-/
import proofs.«128656_j27453430956590_2_alg».proof.Proof.Bits.Region0
import proofs.«128656_j27453430956590_2_alg».proof.Proof.Bits.Region1Obl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))
/-- After any point but the first the invariant gives the untracked form back: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨Hs, HS, Hg⟩
  isplitl [Hs]; · iexact Hs
  isplitl [HS]; · iapply scrOwn_any; iexact HS
  iexact Hg
end Region1

variable (m : (ℓ : Loc nD τ sig) → Buf (Elt F) ℓ) (ρ : Dev nD → PrngReg)

/-- Core `c`'s buffers at launch (region 0's entry: @main has no host operation before it), -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- at region 0's exit (region 1's entry), -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)
/-- and at region 1's exit. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: a region reads an argument through an input window or bypasses it -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((dat1 (V2 m ρ) c).arrAt_in 0 rfl _).trans (A_eq1 (V2 m ρ) c 0))
    _ = W0 m ρ c (Proc.devRef .tc main_arg0) := W2_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((dat0 (V0 m ρ) c).arrAt_in 0 rfl _).trans (A_eq0 (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V0 m ρ) c).arrAt_in 2 rfl _).trans (A_eq0 (V0 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := (W4_arr m ρ c 1).trans (((dat1 (V2 m ρ) c).arrAt_in 1 rfl _).trans (A_eq1 (V2 m ρ) c 1))
    _ = W0 m ρ c (Proc.devRef .tc main_arg3) := W2_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 1).trans (((dat0 (V0 m ρ) c).arrAt_in 1 rfl _).trans (A_eq0 (V0 m ρ) c 1))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 3).trans (((dat0 (V0 m ρ) c).arrAt_in 3 rfl _).trans (A_eq0 (V0 m ρ) c 3))
    _ = m ((c : Thread nD τ).loc main_arg5) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through both regions: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: entered from every unscoped buffer as launched, left with its arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with its arrays at what its write-backs leave; its invariant, which
    tracks the scratch, is the untracked one at entry and gives it back at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) :=
      Phi_out1 (V2 m ρ) c (Fin.last cfg1.N) (by rw [Fin.val_last]; have : cfg1.N = 128 := N_1; omega)
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) :=
  main_segs adm (pdats m ρ) () 𝒱₀ L lv (reg0 m ρ) (reg1 m ρ) c

set_option backward.isDefEq.respectTransparency.types false in
/-- From any memory with zero counters every weakly fair execution of @main terminates, nothing faulting, with every
    unscoped buffer of every core at the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim's statement at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The same run, with the result array named: what region 1's write-backs leave in it. -/
theorem run_result : θ_run defs (onTc (τ := τ) (main (F := F))) ⟨m, fun _ => 0, ρ⟩ (fun r => ∀ c : Dev nD,
      r.2.mem ((c.tc : Thread nD τ).loc main_v1) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v1 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Fr

end
-- ==== Proof.Region0.lean ====
/-
  Region 0 (the key and value projections) as a pipeline: what its body leaves at every grid point.

  Grid point `t` (of 16) stages rows `512 t … 512 t + 511` of the key input and of the value input, and the two
  weight matrices whole; the body stores, into the two output blocks, the matrix products of the input blocks with
  the weights. Stated at any float instance and at any contents `V` of the core's buffers when the region is entered.
-/
import proofs.«128656_j27453430956590_2_alg».proof.Proof.Gen.KernelIdeal.Launch
import proofs.«128656_j27453430956590_2_alg».proof.Proof.Gen.KernelIdeal.Skeleton
import proofs.«128656_j27453430956590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not: unfetched, the block
    index has not moved. One statement per input window (the key block, the key weights, the value block, the value weights). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole 512×1024 block and the whole 1024×1024 block, as rectangles. -/
abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- The key projection's output block after the body: the product of the key block with the key weights. -/
def out0_4 (x0 : Vec F S512x1024 .f32) (x1 : Vec F S1024x1024 .f32) : Vec F S512x1024 .bf16 :=
  View.canon [⟨rA, k0_pay1 (View.ld x0 rA) (View.ld x1 rW)⟩]
/-- The value projection's output block after the body. -/
def out0_5 (x2 : Vec F S512x1024 .f32) (x3 : Vec F S1024x1024 .f32) : Vec F S512x1024 .bf16 :=
  View.canon [⟨rA, k0_pay2 (View.ld x2 rA) (View.ld x3 rW)⟩]

/-- One whole-block store covers the block. -/
theorem coverA (p0 : Vec F S512x1024 .bf16) (y : S512x1024.Idx) :
    ∃ pc ∈ ([⟨rA, p0⟩] : List (View.Piece (Elt F) S512x1024 .bf16)), y ∈ pc.1.set :=
  View.cover_of_tiled [⟨rA, p0⟩] S512x1024.size (by rfl) y

set_option maxHeartbeats 4000000 in
/-- The body on whole staging memrefs: the four inputs at read contents and the two outputs at anything run to the
    inputs as they were and each output at its product. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S512x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x1024 .f32) (x2 : Vec F S512x1024 .f32) (x3 : Vec F S1024x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x2 x3)) -∗ K ⟨⟩))
      ⊢ wp frame (wpE (defs₀ (F := F)) Variants.none c none) E (cc0__proj_kv_kernel i arg1 harg1 arg2 harg2 arg3 harg3 arg4 harg4 arg5 harg5 arg6 harg6) K := by
  simp only [cc0__proj_kv_kernel_eq_skeleton]; unfold cc0__proj_kv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA _)
  iexists _; isplitr
  swap; · iexact H5
  ipureintro
  exact View.read_writes_eq_canon _ _ _ (coverA _)

/-! ## The proof data -/

/-- Region 0's proof data on core `c`: the arrays as the region finds them; after the body at point `t` each input's
    buffer at its block and each output's at the product of the point's blocks; the invariant only the buffers the region
    does not use and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.FlashRec.lean ====
/-
  The flash kernel's scratch recursion as pure functions.

  One query tile (512 rows) sweeps the eight key/value tiles (1024 rows each). The kernel keeps, between
  grid points, a running row maximum `m`, a running normaliser `l` and an unnormalised accumulator `acc`, and
  the projected query tile `qs` cached at the first key/value tile. `step` is what one key/value tile does to
  `(m, l, acc)`: with `s` the scaled scores of the tile, `m' = max m (rowmax s)`, `a = exp (m - m')`,
  `p = exp (s - m')`, `l' = a * l + rowsum p`, `acc' = a * acc + p · V`. `sweep` folds the eight tiles from the
  reset state, and `out` divides the accumulator by the normaliser. Everything is stated over the kernel's own
  payload functions, at any float instance.
-/
import proofs.«128656_j27453430956590_2_alg».proof.Proof.Gen.KernelIdeal.Skeleton

noncomputable section

namespace Cert.KernelIdeal.Flash

open Idealize.ShloMosaic Idealize.SL.Sem Cert.KernelIdeal Cert.KernelIdeal.Gen

variable {F : FTy → Type} [FloatOps F]

/-- The scratch carried between key/value tiles: running maximum, running normaliser, accumulator. -/
structure St (F : FTy → Type) where
  m : Vec F S512x1 .f32
  l : Vec F S512x1 .f32
  acc : Vec F S512x1024 .f32

/-- The state the first key/value tile resets the scratch to: maximum -∞, normaliser 0, accumulator 0. -/
def reset : St F := ⟨k1_pay4 (F := F), k1_pay5 (F := F), k1_pay6 (F := F)⟩

/-- One key/value tile `(kb, vb)` against the cached projected query tile `qs`. -/
def step (qs : Vec F S512x1024 .bf16) (kb vb : Vec F S1024x1024 .bf16) (s : St F) : St F :=
  ⟨k1_pay2 (k1_pay9 qs kb s.m), k1_pay12 qs kb s.m s.l, k1_pay1 (k1_pay13 qs kb vb s.m s.acc)⟩

/-- The scratch after the first `n` key/value tiles. -/
def sweep (qs : Vec F S512x1024 .bf16) (kb vb : Fin 8 → Vec F S1024x1024 .bf16) : (n : ℕ) → St F
  | 0 => reset
  | n + 1 => if h : n < 8 then step qs (kb ⟨n, h⟩) (vb ⟨n, h⟩) (sweep qs kb vb n) else sweep qs kb vb n

/-- What the last key/value tile writes to the output block: accumulator over normaliser, after all eight tiles. -/
def out (qs : Vec F S512x1024 .bf16) (kb vb : Fin 8 → Vec F S1024x1024 .bf16) : Vec F S512x1024 .f32 :=
  k1_pay3 (sweep qs kb vb 8).acc (sweep qs kb vb 8).l

/-- The projected query tile the first key/value tile caches: the query block times the query weights. -/
def qproj (qb : Vec F S512x1024 .f32) (wq : Vec F S1024x1024 .f32) : Vec F S512x1024 .bf16 := k1_pay7 qb wq

end Cert.KernelIdeal.Flash

end
-- ==== Proof.Region1Defs.lean ====
/-
  Region 1 (the flash kernel) as a pipeline, first part: the windows' blocks, the two branch conditions of the body in
  closed form over the 16 × 8 grid (the reset at the first key/value tile, the division at the last), and where the output
  window is idle.
-/
import proofs.«128656_j27453430956590_2_alg».proof.Proof.Gen.KernelIdeal.Launch
import proofs.«128656_j27453430956590_2_alg».proof.Proof.Gen.KernelIdeal.Skeleton
import proofs.«128656_j27453430956590_2_alg».proof.Proof.Gen.KernelIdeal.Points
import proofs.«128656_j27453430956590_2_alg».proof.Proof.FlashRec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not: unfetched, the block
    index has not moved (the query block moves every eighth point, the query weights never, the key and value blocks at
    every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first `scf.if` of the body: this is the first key/value tile of the query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second: this is the last key/value tile of the query tile. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key/value tile the body stores nothing into the output block and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The scratch operands -/

/-- The four scratch buffers, as whole memrefs: the running maximum, the running normaliser, the accumulator, the cached
    projected query tile. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev scQ : Memref sig .tc .vmem S512x1024 .bf16 := Memref.whole cc1_scratch3

end Cert.KernelIdeal.Fr

end
-- ==== Proof.Region1Body.lean ====
/-
  Region 1 (the flash kernel): the body's triple in its three cases.

  At the first key/value tile of a query tile the body resets the running maximum, normaliser and accumulator, caches the
  projected query tile, and then does one online-softmax step; at the tiles in between it does the step on what the tile
  before left; at the last tile it does the step and stores accumulator over normaliser into the output block. In every
  case the scratch ends at `Flash.step` of what it started the step from.
-/
import proofs.«128656_j27453430956590_2_alg».proof.Proof.Region1Defs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of a whole block of a rank-2 shape is zero on both axes. -/
theorem hz2 : (![0, 0] : Fin 2 → ℕ) = fun _ => 0 := by funext a; fin_cases a <;> rfl

/-- A store of the whole block, last in the list, covers the block. -/
theorem cover_head {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set := by
  subst h
  exact ⟨_, List.mem_cons_self .., by show y ∈ (Rect.whole S).set; rw [Rect.set_whole]; exact Finset.mem_univ y⟩

/-- A buffer whose last store wrote the whole block reads back as that store's payload, whatever came before. -/
theorem read_writes_head {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (cover_head h inb w L)).trans (View.canon_cons_unit_zero h inb w L)

set_option maxHeartbeats 8000000 in
/-- A key/value tile that is neither the first nor the last: one step on the scratch, the output block untouched. -/
theorem sound_kernel1_B (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole)
    (arg10 : Memref sig .tc .vmem S512x1024 .bf16) (harg10 : arg10.IsWhole)
    (hc0 : ¬cond1_0 i) (hc1 : ¬cond1_1 i)
    (x0 : Vec F S512x1024 .f32) (x1 : Vec F S1024x1024 .f32) (x2 : Vec F S1024x1024 .bf16) (x3 : Vec F S1024x1024 .bf16)
    (xi : Vec F S512x1024 .f32) (s0 s1 : Vec F S512x1 .f32) (s2 : Vec F S512x1024 .f32) (qs : Vec F S512x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ owns (c : Thread nD τ) arg7 fullShare s0 ∗ owns (c : Thread nD τ) arg8 fullShare s1
        ∗ owns (c : Thread nD τ) arg9 fullShare s2 ∗ owns (c : Thread nD τ) arg10 fullShare qs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (Flash.step qs x2 x3 ⟨s0, s1, s2⟩).m ∗ owns (c : Thread nD τ) arg8 fullShare (Flash.step qs x2 x3 ⟨s0, s1, s2⟩).l
            ∗ owns (c : Thread nD τ) arg9 fullShare (Flash.step qs x2 x3 ⟨s0, s1, s2⟩).acc ∗ owns (c : Thread nD τ) arg10 fullShare qs) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9 arg10 harg10) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, ⟨%g3, %hg3, G3⟩, Hk⟩
  subst hf0; subst hf1; subst hf2; subst hf3; subst hf4; subst hg0; subst hg1; subst hg2; subst hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [G0]
  · iexists _; isplitr
    swap; · iexact G0
    ipureintro
    refine (read_writes_head _ _ hz2 _ _ _).trans ?_
    simp only [View.readAt_eq_ld, View.ld_unit_zero (S := S512x1024) hz2, View.ld_unit_zero (S := S1024x1024) hz2, View.ld_unit_zero (S := S512x1) hz2]
    rfl
  isplitl [G1]
  · iexists _; isplitr
    swap; · iexact G1
    ipureintro
    refine (read_writes_head _ _ hz2 _ _ _).trans ?_
    simp only [View.readAt_eq_ld, View.ld_unit_zero (S := S512x1024) hz2, View.ld_unit_zero (S := S1024x1024) hz2, View.ld_unit_zero (S := S512x1) hz2]
    rfl
  isplitl [G2]
  · iexists _; isplitr
    swap; · iexact G2
    ipureintro
    refine (read_writes_head _ _ hz2 _ _ _).trans ?_
    simp only [View.readAt_eq_ld, View.ld_unit_zero (S := S512x1024) hz2, View.ld_unit_zero (S := S1024x1024) hz2, View.ld_unit_zero (S := S512x1) hz2]
    rfl
  iexists g3; isplitr; · ipureintro; rfl
  iexact G3

set_option maxHeartbeats 8000000 in
/-- The first key/value tile of a query tile: whatever the scratch held, it ends at one step from the reset state, with the
    projected query tile cached; the output block untouched. -/
theorem sound_kernel1_A (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole)
    (arg10 : Memref sig .tc .vmem S512x1024 .bf16) (harg10 : arg10.IsWhole)
    (hc0 : cond1_0 i) (hc1 : ¬cond1_1 i)
    (x0 : Vec F S512x1024 .f32) (x1 : Vec F S1024x1024 .f32) (x2 : Vec F S1024x1024 .bf16) (x3 : Vec F S1024x1024 .bf16)
    (xi : Vec F S512x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi
            ∗ owns (c : Thread nD τ) arg7 fullShare (Flash.step (Flash.qproj x0 x1) x2 x3 Flash.reset).m ∗ owns (c : Thread nD τ) arg8 fullShare (Flash.step (Flash.qproj x0 x1) x2 x3 Flash.reset).l
            ∗ owns (c : Thread nD τ) arg9 fullShare (Flash.step (Flash.qproj x0 x1) x2 x3 Flash.reset).acc ∗ owns (c : Thread nD τ) arg10 fullShare (Flash.qproj x0 x1)) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9 arg10 harg10) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%e0, %g0, -, G0⟩, ⟨%e1, %g1, -, G1⟩, ⟨%e2, %g2, -, G2⟩, ⟨%e3, %g3, -, G3⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [G0]
  · iexists _; isplitr
    swap; · iexact G0
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G1]
  · iexists _; isplitr
    swap; · iexact G1
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G2]
  · iexists _; isplitr
    swap; · iexact G2
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  iexists _; isplitr
  swap; · iexact G3
  ipureintro
  sl_unfold_run_names
  refine (read_writes_head _ _ hz2 _ _ _).trans ?_
  simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
  rfl

set_option maxHeartbeats 8000000 in
/-- The last key/value tile of a query tile: one step on the scratch, and the output block ends at accumulator over
    normaliser of the stepped scratch. -/
theorem sound_kernel1_C (c : Dev nD) (E : Set ℕ) (i : grid1.Coords) (arg2 : Memref sig .tc .vmem S512x1024 .f32) (harg2 : arg2.IsWhole) (arg3 : Memref sig .tc .vmem S1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1024 .f32) (harg9 : arg9.IsWhole)
    (arg10 : Memref sig .tc .vmem S512x1024 .bf16) (harg10 : arg10.IsWhole)
    (hc0 : ¬cond1_0 i) (hc1 : cond1_1 i)
    (x0 : Vec F S512x1024 .f32) (x1 : Vec F S1024x1024 .f32) (x2 : Vec F S1024x1024 .bf16) (x3 : Vec F S1024x1024 .bf16)
    (s0 s1 : Vec F S512x1 .f32) (s2 : Vec F S512x1024 .f32) (qs : Vec F S512x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare s0 ∗ owns (c : Thread nD τ) arg8 fullShare s1
        ∗ owns (c : Thread nD τ) arg9 fullShare s2 ∗ owns (c : Thread nD τ) arg10 fullShare qs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k1_pay3 (Flash.step qs x2 x3 ⟨s0, s1, s2⟩).acc (Flash.step qs x2 x3 ⟨s0, s1, s2⟩).l)
            ∗ owns (c : Thread nD τ) arg7 fullShare (Flash.step qs x2 x3 ⟨s0, s1, s2⟩).m ∗ owns (c : Thread nD τ) arg8 fullShare (Flash.step qs x2 x3 ⟨s0, s1, s2⟩).l
            ∗ owns (c : Thread nD τ) arg9 fullShare (Flash.step qs x2 x3 ⟨s0, s1, s2⟩).acc ∗ owns (c : Thread nD τ) arg10 fullShare qs) -∗ K ⟨⟩))
      ⊢ wp frame (wpE (defs₀ (F := F)) Variants.none c none) E (cc1__flash_kernel i arg2 harg2 arg3 harg3 arg4 harg4 arg5 harg5 arg6 harg6 arg7 harg7 arg8 harg8 arg9 harg9 arg10 harg10) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, G0⟩, ⟨%g1, %hg1, G1⟩, ⟨%g2, %hg2, G2⟩, ⟨%g3, %hg3, G3⟩, Hk⟩
  subst hf0; subst hf1; subst hf2; subst hf3; subst hg0; subst hg1; subst hg2; subst hg3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G0]
  · iexists _; isplitr
    swap; · iexact G0
    ipureintro
    refine (read_writes_head _ _ hz2 _ _ _).trans ?_
    sl_unfold_run_names
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G1]
  · iexists _; isplitr
    swap; · iexact G1
    ipureintro
    sl_unfold_run_names
    refine (read_writes_head _ _ hz2 _ _ _).trans ?_
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  isplitl [G2]
  · iexists _; isplitr
    swap; · iexact G2
    ipureintro
    sl_unfold_run_names
    refine (read_writes_head _ _ hz2 _ _ _).trans ?_
    simp only [View.readAt_eq_ld, View.ld_unit_zero (S := S512x1024) hz2, View.ld_unit_zero (S := S1024x1024) hz2, View.ld_unit_zero (S := S512x1) hz2,
      View.readCov_unit_zero (S := S512x1024) _ hz2, View.readCov_unit_zero (S := S512x1) _ hz2]
    rfl
  iexists g3; isplitr; · ipureintro; rfl
  iexact G3

end Cert.KernelIdeal.Fr

end
-- ==== Proof.Region1Dat.lean ====
/-
  Region 1 (the flash kernel): the proof data of its pipeline.

  The scratch after the body at grid position `n`: at the first key/value tile of a query tile, one online-softmax step from
  the reset state with the projected query tile freshly cached; otherwise one step on what position `n - 1` left, the cached
  tile unchanged. The output block after the body at a last key/value tile is accumulator over normaliser of that scratch.
  The invariant between grid points owns the four scratch buffers at exactly these contents (before the first point: at
  anything), beside region 0's staging buffers and the generator register, which the body never touches.
-/
import proofs.«128656_j27453430956590_2_alg».proof.Proof.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Region 0's ten staging buffers, which region 1 never touches, each whole at some contents. -/
def stg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The four scratch buffers at some contents, -/
def scrAny (c : Dev nD) : sProp 𝕄 :=
  iprop((∃ d, owns (c : Thread nD τ) scM fullShare d) ∗ (∃ d, owns (c : Thread nD τ) scL fullShare d)
    ∗ (∃ d, owns (c : Thread nD τ) scA fullShare d) ∗ (∃ d, owns (c : Thread nD τ) scQ fullShare d))
/-- and at named contents: running maximum, normaliser, accumulator, cached projected query tile. -/
def scrOwn (c : Dev nD) (s : Flash.St F) (qs : Vec F S512x1024 .bf16) : sProp 𝕄 :=
  iprop(owns (c : Thread nD τ) scM fullShare s.m ∗ owns (c : Thread nD τ) scL fullShare s.l
    ∗ owns (c : Thread nD τ) scA fullShare s.acc ∗ owns (c : Thread nD τ) scQ fullShare qs)

theorem scrOwn_any (c : Dev nD) (s : Flash.St F) (qs : Vec F S512x1024 .bf16) : scrOwn c s qs ⊢ (scrAny c : sProp 𝕄) := by
  unfold scrOwn scrAny
  iintro ⟨S0, S1, S2, S3⟩
  isplitl [S0]; · iexists _; iexact S0
  isplitl [S1]; · iexists _; iexact S1
  isplitl [S2]; · iexists _; iexact S2
  iexists _; iexact S3

/-- The scoped buffers region 1's pipeline does not stage are region 0's staging buffers and the four scratch buffers. -/
theorem PhiA1_eq (c : Dev nD) :
    (Pipeline.ΦA spec1 c : sProp 𝕄) = iprop(stg c ∗ scrAny c ∗ ∃ r, prngReg c r) := by
  have e : (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM fullShare d) ∗ (∃ d, owns (c : Thread nD τ) scL fullShare d) ∗ (∃ d, owns (c : Thread nD τ) scA fullShare d) ∗ (∃ d, owns (c : Thread nD τ) scQ fullShare d)) ∗ ∃ r, prngReg c r) := by
    unfold Pipeline.ΦA; rw [scopedRest1_eq]; simp only [scM, scL, scA, scQ, owns_whole]; try rfl
  rw [e]
  refine BI.equiv_iff.mp ⟨?_, ?_⟩
  · show (_ : sProp 𝕄) ⊢ _
    unfold stg scrAny
    iintro ⟨⟨A0, A1, A2, A3, A4, A5, A6, A7, A8, A9, S0, S1, S2, S3⟩, Hg⟩
    isplitl [A0 A1 A2 A3 A4 A5 A6 A7 A8 A9]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    isplitl [S0 S1 S2 S3]
    · isplitl [S0]; · iexact S0
      isplitl [S1]; · iexact S1
      isplitl [S2]; · iexact S2
      iexact S3
    iexact Hg
  · show (_ : sProp 𝕄) ⊢ _
    unfold stg scrAny
    iintro ⟨⟨A0, A1, A2, A3, A4, A5, A6, A7, A8, A9⟩, ⟨S0, S1, S2, S3⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [S0]; · iexact S0
      isplitl [S1]; · iexact S1
      isplitl [S2]; · iexact S2
      iexact S3
    iexact Hg

section Region1
variable (V : (c : Dev nD) → (b : Ref sig .tc) → Buf (Elt F) ((c : Thread nD τ).loc b))

/-- The scratch after the body at position `n`. -/
def scrAfter (c : Dev nD) : (n : ℕ) → n < cfg1.N → Flash.St F × Vec F S512x1024 .bf16
  | 0, hn => (Flash.step (Flash.qproj (iblk1 V c 0 ⟨0, hn⟩) (iblk1 V c 1 ⟨0, hn⟩)) (iblk1 V c 2 ⟨0, hn⟩) (iblk1 V c 3 ⟨0, hn⟩) Flash.reset, Flash.qproj (iblk1 V c 0 ⟨0, hn⟩) (iblk1 V c 1 ⟨0, hn⟩))
  | n + 1, hn =>
    if h : (n + 1) % 8 = 0 then
      (Flash.step (Flash.qproj (iblk1 V c 0 ⟨n + 1, hn⟩) (iblk1 V c 1 ⟨n + 1, hn⟩)) (iblk1 V c 2 ⟨n + 1, hn⟩) (iblk1 V c 3 ⟨n + 1, hn⟩) Flash.reset, Flash.qproj (iblk1 V c 0 ⟨n + 1, hn⟩) (iblk1 V c 1 ⟨n + 1, hn⟩))
    else
      (Flash.step (scrAfter c n (Nat.lt_of_succ_lt hn)).2 (iblk1 V c 2 ⟨n + 1, hn⟩) (iblk1 V c 3 ⟨n + 1, hn⟩) (scrAfter c n (Nat.lt_of_succ_lt hn)).1,
        (scrAfter c n (Nat.lt_of_succ_lt hn)).2)

/-- At the first key/value tile of a query tile: one step from the reset state. -/
theorem scrAfter_first (c : Dev nD) (t : Fin cfg1.N) (h : t.val % 8 = 0) :
    scrAfter V c t.val t.isLt = (Flash.step (Flash.qproj (iblk1 V c 0 t) (iblk1 V c 1 t)) (iblk1 V c 2 t) (iblk1 V c 3 t) Flash.reset, Flash.qproj (iblk1 V c 0 t) (iblk1 V c 1 t)) := by
  obtain ⟨n, hn⟩ := t
  cases n with
  | zero => rfl
  | succ n => exact dif_pos h

/-- At any other tile: one step on what the position before left. -/
theorem scrAfter_next (c : Dev nD) (t : Fin cfg1.N) (h : ¬t.val % 8 = 0) :
    scrAfter V c t.val t.isLt
      = (Flash.step (scrAfter V c (t.val - 1) (Nat.lt_of_le_of_lt (Nat.sub_le _ _) t.isLt)).2 (iblk1 V c 2 t) (iblk1 V c 3 t) (scrAfter V c (t.val - 1) (Nat.lt_of_le_of_lt (Nat.sub_le _ _) t.isLt)).1,
          (scrAfter V c (t.val - 1) (Nat.lt_of_le_of_lt (Nat.sub_le _ _) t.isLt)).2) := by
  obtain ⟨n, hn⟩ := t
  cases n with
  | zero => exact absurd (Nat.zero_mod _) h
  | succ n => exact dif_neg h

/-- The output block after the body at position `t` (stored at a last key/value tile): accumulator over normaliser. -/
def outAfter (c : Dev nD) (t : Fin cfg1.N) : Vec F S512x1024 .f32 :=
  k1_pay3 (scrAfter V c t.val t.isLt).1.acc (scrAfter V c t.val t.isLt).1.l

/-- The invariant before position `n`. -/
def PhiS (c : Dev nD) : (n : ℕ) → n ≤ cfg1.N → sProp 𝕄
  | 0, _ => Pipeline.ΦA spec1 c
  | n + 1, hn => iprop(stg c ∗ scrOwn c (scrAfter V c n hn).1 (scrAfter V c n hn).2 ∗ ∃ r, prngReg c r)

theorem PhiS_zero (c : Dev nD) (n : ℕ) (h : n ≤ cfg1.N) (hz : n = 0) : PhiS V c n h = Pipeline.ΦA spec1 c := by
  subst hz; rfl
theorem PhiS_succ (c : Dev nD) (n : ℕ) (hn : n + 1 ≤ cfg1.N) :
    PhiS V c (n + 1) hn = iprop(stg c ∗ scrOwn c (scrAfter V c n hn).1 (scrAfter V c n hn).2 ∗ ∃ r, prngReg c r) := rfl
theorem PhiS_pos (c : Dev nD) (n : ℕ) (h : n ≤ cfg1.N) (hz : n ≠ 0) :
    PhiS V c n h = iprop(stg c ∗ scrOwn c (scrAfter V c (n - 1) (by omega)).1 (scrAfter V c (n - 1) (by omega)).2 ∗ ∃ r, prngReg c r) := by
  cases n with
  | zero => exact absurd rfl hz
  | succ n => rfl

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAfter V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAfter V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

end Cert.KernelIdeal.Fr

end
-- ==== Proof.Region1Obl.lean ====
/-
  Region 1 (the flash kernel): the body obligation at a generic grid point, by cases on the key/value tile — the first of
  its query tile (the scratch is reset, so whatever the invariant held is forgotten), one in between (the scratch steps from
  what the point before left), the last (it steps, and the output block is stored).
-/
import proofs.«128656_j27453430956590_2_alg».proof.Proof.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- Before any point the invariant holds region 0's staging buffers, the four scratch buffers at some contents and the
    generator register. -/
theorem PhiS_any (c : Dev nD) (n : ℕ) (h : n ≤ cfg1.N) :
    PhiS V c n h ⊢ (iprop(stg c ∗ ((∃ d, owns (c : Thread nD τ) scM fullShare d) ∗ (∃ d, owns (c : Thread nD τ) scL fullShare d)
      ∗ (∃ d, owns (c : Thread nD τ) scA fullShare d) ∗ (∃ d, owns (c : Thread nD τ) scQ fullShare d)) ∗ ∃ r, prngReg c r) : sProp 𝕄) := by
  have key : PhiS V c n h ⊢ (iprop(stg c ∗ scrAny c ∗ ∃ r, prngReg c r) : sProp 𝕄) := by
    by_cases hz : n = 0
    · rw [PhiS_zero V c n h hz, PhiA1_eq]
    · rw [PhiS_pos V c n h hz]
      iintro ⟨Hs, HS, Hg⟩
      isplitl [Hs]; · iexact Hs
      isplitl [HS]; · iapply scrOwn_any; iexact HS
      iexact Hg
  unfold scrAny at key
  exact key

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  have hN : t.val < 128 := lt_of_lt_of_eq t.isLt (show cfg1.N = 128 from N_1)
  rw [PhiS_castSucc V c t]
  by_cases h0 : t.val % 8 = 0
  · -- the first key/value tile of a query tile
    have h7 : ¬t.val % 8 = 7 := by omega
    have hc0 : cond1_0 (grid1.coords t) := (hcond1_0 t).mpr h0
    have hc1 : ¬cond1_1 (grid1.coords t) := fun h => h7 ((hcond1_1 t).mp h)
    rw [Dat.leavesExact_idle (dat1 V c) 4 t (idleAt1_4 t hc1) (noFlush1_4 t hc1)]
    rw [scrAfter_first V c t h0]
    (try dsimp only)
    iintro ⟨HΦ, Ho, ⟨%d0, H0⟩, ⟨%d1, H1⟩, ⟨%d2, H2⟩, ⟨%d3, H3⟩, ⟨%d4, H4⟩⟩
    ihave HΦ' := (PhiS_any V c t.val (Nat.le_of_lt t.isLt)) $$ HΦ
    icases HΦ' with ⟨Hs, ⟨S0, S1, S2, S3⟩, Hg⟩
    iapply (sound_kernel1_A c Set.univ (grid1.coords t) _ _ _ _ _ _ _ _ _ _ _ _ _ _ _ _ _ _ hc0 hc1 (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [Hs S0 S1 S2 S3 Hg]
    · isplitl [Hs]; · iexact Hs
      isplitl [S0 S1 S2 S3]
      · unfold scrOwn
        isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond1_0 (grid1.coords t) := fun h => h0 ((hcond1_0 t).mp h)
    rw [PhiS_pos V c _ _ hz]
    by_cases h7 : t.val % 8 = 7
    · -- the last key/value tile: the output block is stored
      have hc1 : cond1_1 (grid1.coords t) := (hcond1_1 t).mpr h7
      rw [show (dat1 V c).leavesExact 4 t = owns (c : Thread nD τ) (st1_4 t) fullShare ((dat1 V c).after 4 t) from by
          unfold Dat.leavesExact; rw [liveAt1_4 t hc1], after1_4]
      unfold outAfter
      rw [scrAfter_next V c t h0]
      (try dsimp only)
      unfold scrOwn
      iintro ⟨⟨Hs, ⟨S0, S1, S2, S3⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ _ _ _ _ hc0 hc1 (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      isplitl [S3]; · iexact S3
      iintro ⟨H0, H1, H2, H3, H4, S0, S1, S2, S3⟩
      isplitl [Hs S0 S1 S2 S3 Hg]
      · isplitl [Hs]; · iexact Hs
        isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexact H4
    · -- a key/value tile in between: the output block untouched
      have hc1 : ¬cond1_1 (grid1.coords t) := fun h => h7 ((hcond1_1 t).mp h)
      rw [Dat.leavesExact_idle (dat1 V c) 4 t (idleAt1_4 t hc1) (noFlush1_4 t hc1)]
      rw [scrAfter_next V c t h0]
      (try dsimp only)
      unfold scrOwn
      iintro ⟨⟨Hs, ⟨S0, S1, S2, S3⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ _ _ _ _ hc0 hc1 (iblk1 V c 0 t) (iblk1 V c 1 t) (iblk1 V c 2 t) (iblk1 V c 3 t) _ _ _ _ _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [Hs S0 S1 S2 S3 Hg]
      · isplitl [Hs]; · iexact Hs
        isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.FrameRun.lean ====
/-
  The run of the two regions from the launch to the return.

  The core's unscoped buffers: at launch as given; after region 0 the two projected arrays hold what its write-backs leave
  and everything else is as launched; after region 1 the result array holds what ITS write-backs leave, everything else as
  region 0 left it. No argument array is written by either region. Every weakly fair execution terminates with every
  unscoped buffer at these last contents.
-/
import proofs.«128656_j27453430956590_2_alg».proof.Proof.Region0
import proofs.«128656_j27453430956590_2_alg».proof.Proof.Region1Obl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))
/-- After any point but the first the invariant gives the untracked form back: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨Hs, HS, Hg⟩
  isplitl [Hs]; · iexact Hs
  isplitl [HS]; · iapply scrOwn_any; iexact HS
  iexact Hg
end Region1

variable (m : (ℓ : Loc nD τ sig) → Buf (Elt F) ℓ) (ρ : Dev nD → PrngReg)

/-- Core `c`'s buffers at launch (region 0's entry: @main has no host operation before it), -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- at region 0's exit (region 1's entry), -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)
/-- and at region 1's exit. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched: a region reads an argument through an input window or bypasses it -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((dat1 (V2 m ρ) c).arrAt_in 0 rfl _).trans (A_eq1 (V2 m ρ) c 0))
    _ = W0 m ρ c (Proc.devRef .tc main_arg0) := W2_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 0).trans (((dat0 (V0 m ρ) c).arrAt_in 0 rfl _).trans (A_eq0 (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V0 m ρ) c).arrAt_in 2 rfl _).trans (A_eq0 (V0 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := (W4_arr m ρ c 1).trans (((dat1 (V2 m ρ) c).arrAt_in 1 rfl _).trans (A_eq1 (V2 m ρ) c 1))
    _ = W0 m ρ c (Proc.devRef .tc main_arg3) := W2_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 1).trans (((dat0 (V0 m ρ) c).arrAt_in 1 rfl _).trans (A_eq0 (V0 m ρ) c 1))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 3).trans (((dat0 (V0 m ρ) c).arrAt_in 3 rfl _).trans (A_eq0 (V0 m ρ) c 3))
    _ = m ((c : Thread nD τ).loc main_arg5) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through both regions: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: entered from every unscoped buffer as launched, left with its arrays at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with its arrays at what its write-backs leave; its invariant, which
    tracks the scratch, is the untracked one at entry and gives it back at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ (Pipeline.ΦA spec1 c : sProp 𝕄) :=
      Phi_out1 (V2 m ρ) c (Fin.last cfg1.N) (by rw [Fin.val_last]; have : cfg1.N = 128 := N_1; omega)
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) :=
  main_segs adm (pdats m ρ) () 𝒱₀ L lv (reg0 m ρ) (reg1 m ρ) c

set_option backward.isDefEq.respectTransparency.types false in
/-- From any memory with zero counters every weakly fair execution of @main terminates, nothing faulting, with every
    unscoped buffer of every core at the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim's statement at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The same run, with the result array named: what region 1's write-backs leave in it. -/
theorem run_result : θ_run defs (onTc (τ := τ) (main (F := F))) ⟨m, fun _ => 0, ρ⟩ (fun r => ∀ c : Dev nD,
      r.2.mem ((c.tc : Thread nD τ).loc main_v1) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v1 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Fr

end
-- ==== Proof.KernelTiles.lean ====
/-
  The flash kernel's blocks as tiles of the whole arrays, and its scratch in closed form.

  Grid position `8 qi + j` of region 1 stages query tile `qi` (rows `512 qi …`), the query weights whole, and key/value
  tile `j` (rows `1024 j …`) of the two projected arrays. So the scratch after that position is the sweep of the first
  `j + 1` key/value tiles against the projected query tile `qi`, and what the last position of a query tile writes back is
  `Flash.out` of that query tile against all eight key/value tiles. At any float instance.
-/
import proofs.«128656_j27453430956590_2_alg».proof.Proof.FrameRun
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- Query tile `qi` of an 8192-row array: rows 512·qi … 512·qi + 511. -/
def qTile {e : EltTy} (X : S8192x1024.Idx → Elt F e) (qi : Fin 16) : S512x1024.Idx → Elt F e :=
  fun y => X (ix2 ⟨512 * qi.val + (y 0).val, by have := idx2_lt0 y; have := qi.isLt; omega⟩ ⟨(y 1).val, idx2_lt1 y⟩)
/-- Key/value tile `j` of an 8192-row array: rows 1024·j … 1024·j + 1023. -/
def kvTile {e : EltTy} (X : S8192x1024.Idx → Elt F e) (j : Fin 8) : S1024x1024.Idx → Elt F e :=
  fun y => X (ix2 ⟨1024 * j.val + (y 0).val, by have := idx2_lt0 y; have := j.isLt; omega⟩ ⟨(y 1).val, idx2_lt1 y⟩)

/-- The printed index maps of region 1, decided over the grid: the query block and the output block move with the query
    tile, the key and value blocks with the key/value tile, the weights never. -/
theorem idx1 : ∀ t : Fin cfg1.N, win1_0.index t (0 : Fin 2) = t.val / 8 ∧ win1_0.index t (1 : Fin 2) = 0
    ∧ win1_1.index t (0 : Fin 2) = 0 ∧ win1_1.index t (1 : Fin 2) = 0
    ∧ win1_2.index t (0 : Fin 2) = t.val % 8 ∧ win1_2.index t (1 : Fin 2) = 0
    ∧ win1_3.index t (0 : Fin 2) = t.val % 8 ∧ win1_3.index t (1 : Fin 2) = 0
    ∧ win1_4.index t (0 : Fin 2) = t.val / 8 ∧ win1_4.index t (1 : Fin 2) = 0 :=
  (by decide +kernel : ∀ t : Fin grid1.N, _)

theorem qi_lt (t : Fin cfg1.N) : t.val / 8 < 16 := by
  have := t.isLt; have hN : cfg1.N = 128 := N_1; omega
theorem kv_lt (t : Fin cfg1.N) : t.val % 8 < 8 := Nat.mod_lt _ (by norm_num)

section Region1
variable (V : (c : Dev nD) → (b : Ref sig .tc) → Buf (Elt F) ((c : Thread nD τ).loc b))

/-- The query block at a point is the point's query tile of the query array, -/
theorem iblk1_0_eq (c : Dev nD) (t : Fin cfg1.N) :
    (iblk1 V c 0 t : S512x1024.Idx → Elt F .f32) = qTile (V c main_arg0) ⟨t.val / 8, qi_lt t⟩ := by
  funext y
  show V c main_arg0 (((cfg1.win 0).blk t).view.emb y) = V c main_arg0 (ix2 _ _)
  refine congrArg _ ?_
  obtain ⟨e0, e1, -⟩ := idx1 t
  funext a; apply Fin.ext
  match a with
  | ⟨0, _⟩ => show win1_0.index t (0 : Fin 2) * 512 + 1 * (y 0).val = 512 * (t.val / 8) + (y 0).val; omega
  | ⟨1, _⟩ => show win1_0.index t (1 : Fin 2) * 1024 + 1 * (y 1).val = (y 1).val; omega
/-- the weights block is the whole weights array, -/
theorem iblk1_1_eq (c : Dev nD) (t : Fin cfg1.N) :
    (iblk1 V c 1 t : S1024x1024.Idx → Elt F .f32) = V c main_arg3 := by
  funext y
  show V c main_arg3 (((cfg1.win 1).blk t).view.emb y) = V c main_arg3 y
  refine congrArg _ ?_
  obtain ⟨-, -, e2, e3, -⟩ := idx1 t
  funext a; apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega
/-- the key block is the point's key/value tile of the projected keys, -/
theorem iblk1_2_eq (c : Dev nD) (t : Fin cfg1.N) :
    (iblk1 V c 2 t : S1024x1024.Idx → Elt F .bf16) = kvTile (V c main_v0_0) ⟨t.val % 8, kv_lt t⟩ := by
  funext y
  show V c main_v0_0 (((cfg1.win 2).blk t).view.emb y) = V c main_v0_0 (ix2 _ _)
  refine congrArg _ ?_
  obtain ⟨-, -, -, -, e4, e5, -⟩ := idx1 t
  funext a; apply Fin.ext
  match a with
  | ⟨0, _⟩ => show win1_2.index t (0 : Fin 2) * 1024 + 1 * (y 0).val = 1024 * (t.val % 8) + (y 0).val; omega
  | ⟨1, _⟩ => show win1_2.index t (1 : Fin 2) * 1024 + 1 * (y 1).val = (y 1).val; omega
/-- and the value block the same tile of the projected values. -/
theorem iblk1_3_eq (c : Dev nD) (t : Fin cfg1.N) :
    (iblk1 V c 3 t : S1024x1024.Idx → Elt F .bf16) = kvTile (V c main_v0_1) ⟨t.val % 8, kv_lt t⟩ := by
  funext y
  show V c main_v0_1 (((cfg1.win 3).blk t).view.emb y) = V c main_v0_1 (ix2 _ _)
  refine congrArg _ ?_
  obtain ⟨-, -, -, -, -, -, e6, e7, -⟩ := idx1 t
  funext a; apply Fin.ext
  match a with
  | ⟨0, _⟩ => show win1_3.index t (0 : Fin 2) * 1024 + 1 * (y 0).val = 1024 * (t.val % 8) + (y 0).val; omega
  | ⟨1, _⟩ => show win1_3.index t (1 : Fin 2) * 1024 + 1 * (y 1).val = (y 1).val; omega

/-- The projected query tile `qi` as the first key/value tile caches it. -/
def QS (c : Dev nD) (qi : Fin 16) : Vec F S512x1024 .bf16 := Flash.qproj (qTile (V c main_arg0) qi) (V c main_arg3)

theorem scrAfter_congr (c : Dev nD) {n n' : ℕ} (e : n = n') (h : n < cfg1.N) (h' : n' < cfg1.N) :
    scrAfter V c n h = scrAfter V c n' h' := by subst e; rfl

/-- The scratch in closed form: after key/value tile `j` of query tile `qi`, the sweep of the first `j + 1` tiles. -/
theorem scrAfter_closed (c : Dev nD) (qi : Fin 16) : ∀ (j : ℕ) (hj : j < 8) (h : 8 * qi.val + j < cfg1.N),
    scrAfter V c (8 * qi.val + j) h
      = (Flash.sweep (QS V c qi) (kvTile (V c main_v0_0)) (kvTile (V c main_v0_1)) (j + 1), QS V c qi) := by
  intro j
  induction j with
  | zero =>
    intro hj h
    have hm : (8 * qi.val + 0) % 8 = 0 := by omega
    rw [scrAfter_first V c ⟨8 * qi.val + 0, h⟩ hm]
    rw [iblk1_0_eq, iblk1_1_eq, iblk1_2_eq, iblk1_3_eq]
    have e1 : (⟨(8 * qi.val + 0) / 8, qi_lt ⟨8 * qi.val + 0, h⟩⟩ : Fin 16) = qi := Fin.ext (by show (8 * qi.val + 0) / 8 = qi.val; omega)
    have e2 : (⟨(8 * qi.val + 0) % 8, kv_lt ⟨8 * qi.val + 0, h⟩⟩ : Fin 8) = ⟨0, by omega⟩ := Fin.ext hm
    show (Flash.step (Flash.qproj (qTile (V c main_arg0) ⟨(8 * qi.val + 0) / 8, _⟩) (V c main_arg3)) (kvTile (V c main_v0_0) ⟨(8 * qi.val + 0) % 8, _⟩) (kvTile (V c main_v0_1) ⟨(8 * qi.val + 0) % 8, _⟩) Flash.reset,
        Flash.qproj (qTile (V c main_arg0) ⟨(8 * qi.val + 0) / 8, _⟩) (V c main_arg3)) = _
    rw [e1, e2]
    show _ = (Flash.sweep (QS V c qi) (kvTile (V c main_v0_0)) (kvTile (V c main_v0_1)) (0 + 1), QS V c qi)
    unfold Flash.sweep
    rw [dif_pos (by omega : 0 < 8)]
    rfl
  | succ j ih =>
    intro hj h
    have hm : ¬(8 * qi.val + (j + 1)) % 8 = 0 := by omega
    rw [scrAfter_next V c ⟨8 * qi.val + (j + 1), h⟩ hm]
    have hprev := ih (by omega) (by omega : 8 * qi.val + j < cfg1.N)
    rw [scrAfter_congr V c (by show 8 * qi.val + (j + 1) - 1 = 8 * qi.val + j; omega) _ (by omega : 8 * qi.val + j < cfg1.N), hprev]
    rw [iblk1_2_eq, iblk1_3_eq]
    have e2 : (⟨(8 * qi.val + (j + 1)) % 8, kv_lt ⟨8 * qi.val + (j + 1), h⟩⟩ : Fin 8) = ⟨j + 1, hj⟩ := Fin.ext (by show (8 * qi.val + (j + 1)) % 8 = j + 1; omega)
    show (Flash.step (QS V c qi) (kvTile (V c main_v0_0) ⟨(8 * qi.val + (j + 1)) % 8, _⟩) (kvTile (V c main_v0_1) ⟨(8 * qi.val + (j + 1)) % 8, _⟩) (Flash.sweep (QS V c qi) (kvTile (V c main_v0_0)) (kvTile (V c main_v0_1)) (j + 1)), QS V c qi) = _
    rw [e2]
    conv_rhs => unfold Flash.sweep
    rw [dif_pos hj]

/-- What a query tile's last position writes back: `Flash.out` of the tile against all eight key/value tiles. -/
theorem flushed1_4 (c : Dev nD) (t : Fin cfg1.N) (hf : (cfg1.win 4).flush t = true) :
    ((dat1 V c).flushed 4 t : S512x1024.Idx → Elt F .f32)
      = Flash.out (QS V c ⟨t.val / 8, qi_lt t⟩) (kvTile (V c main_v0_0)) (kvTile (V c main_v0_1)) := by
  have h7 : t.val % 8 = 7 := (flush1_4 t).mp hf
  show (cfg1.win 4).cut (grid1.coords t) ((dat1 V c).after 4 t) = _
  rw [after1_4]
  unfold outAfter Flash.out
  have hc := scrAfter_closed V c ⟨t.val / 8, qi_lt t⟩ 7 (by omega) (by show 8 * (t.val / 8) + 7 < cfg1.N; have := t.isLt; omega)
  rw [scrAfter_congr V c (by show t.val = 8 * (t.val / 8) + 7; omega) t.isLt (by show 8 * (t.val / 8) + 7 < cfg1.N; have := t.isLt; omega), hc]
  rfl

/-- An index of the result array is in position `t`'s output block iff each coordinate is in the block's range. -/
theorem mem_blk1_4 (t : Fin cfg1.N) (i : S8192x1024.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v1).slice (win1_4.rect t)).set ↔ _
  rw [View.set_slice_whole, Rect.mem_set_unit]
  exact Iff.rfl

/-- Every row of the result array is in the output block of its query tile's last position. -/
theorem cover1_4 (i : S8192x1024.Idx) : ∃ t : Fin cfg1.N, (cfg1.win 4).flush t = true ∧ i ∈ ((cfg1.win 4).blk t).view.set := by
  have hi0 : (i 0).val < 8192 := idx2_lt0 i
  have hi1 : (i 1).val < 1024 := idx2_lt1 i
  have hN : cfg1.N = 128 := N_1
  let t : Fin cfg1.N := ⟨8 * ((i 0).val / 512) + 7, by omega⟩
  have ht : t.val = 8 * ((i 0).val / 512) + 7 := rfl
  refine ⟨t, (flush1_4 t).mpr (by rw [ht]; omega), ?_⟩
  rw [mem_blk1_4]
  obtain ⟨-, -, -, -, -, -, -, -, e8, e9⟩ := idx1 t
  intro a
  match a with
  | ⟨0, _⟩ => show win1_4.index t (0 : Fin 2) * 512 ≤ (i 0).val ∧ (i 0).val < win1_4.index t (0 : Fin 2) * 512 + 512; rw [e8, ht]; omega
  | ⟨1, _⟩ => show win1_4.index t (1 : Fin 2) * 1024 ≤ (i 1).val ∧ (i 1).val < win1_4.index t (1 : Fin 2) * 1024 + 1024; rw [e9]; omega

end Region1

end Cert.KernelIdeal.Fr

end
-- ==== Proof.FlashConsts.lean ====
/-
  The float constants the two programs spell, as the extended reals their bit patterns denote at the ideal
  instance: the scale 64 the reference divides the scores by, its reciprocal 1/64 the kernel multiplies by, and the
  two infinities (the maximum's start value, and the bound of the finiteness precondition).
-/
import Idealize.ShloMosaic.PureOps.Ideal

noncomputable section

namespace Cert.FlashConsts

open Idealize.ShloMosaic

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.015625` denotes the real `1/64`. -/
theorem ofBits_inv64 : Ideal.ofBits .f32 0x3C800000#32 = ((1 / 64 : ℝ) : EReal) := by
  simp [Ideal.ofBits, Ideal.ieee, -EReal.coe_mul]; norm_num

/-- The pattern of `-inf` denotes `⊥`. -/
theorem ofBits_neg_inf : Ideal.ofBits .f32 0xFF800000#32 = ⊥ := by
  simp [Ideal.ofBits, Ideal.ieee]

/-- The pattern of `+inf` denotes `⊤`. -/
theorem ofBits_pos_inf : Ideal.ofBits .f32 0x7F800000#32 = ⊤ := by
  simp [Ideal.ofBits, Ideal.ieee]

end Cert.FlashConsts

end
-- ==== Proof.ColumnLayout.lean ====
/-
  Two layout operations read at an index given by coordinates, for a COLUMN kept as a unit axis: a vector of length a
  cast to an a × 1 column reads its own entry, and an a × 1 column broadcast along the rows of an a × b matrix reads
  the row's entry of the column.
-/
import Idealize.ShloMosaic.Lib.ValueLayout

namespace ColumnLayout

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end ColumnLayout
-- ==== Proof.FlashPayload.lean ====
/-
  The flash kernel's arithmetic read one element at a time, at the ideal instance.

  Each payload of the two kernel bodies is a short composition of vector operations. Read at the element (p, d) of
  its result it is the textbook expression: a projection block is the row-by-column sum, a score is the row-by-row
  sum times 1/64, the running maximum is the old one against the row's maximum folded from -∞, the rescaling factor
  and the weights are exponentials of differences, the normaliser and the accumulator are rescaled and extended by
  the tile's sums, and the output is the accumulator over the normaliser. Format changes are the identity here.
-/
import proofs.«128656_j27453430956590_2_alg».proof.Proof.FlashRec
import proofs.«128656_j27453430956590_2_alg».proof.Proof.FlashConsts
import proofs.«128656_j27453430956590_2_alg».proof.Proof.ColumnLayout
import Idealize.ShloMosaic.Lib.ValueLayout
import Idealize.ShloMosaic.PureOps.Ideal.Laws

noncomputable section

namespace Cert.KernelIdeal.Flash

open Idealize.ShloMosaic Idealize.ShloMosaic.ValueIdx Cert.KernelIdeal Cert.KernelIdeal.Gen

/-! ## The two contractions: rows by columns, and rows by rows -/

theorem nn_lhs_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem nn_lhs_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem nn_rhs_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem nn_rhs_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512 × 1024 block times a 1024 × 1024 matrix, into a zero accumulator: at (p, d) the sum over c of the block's
    row p against the matrix's column d. -/
theorem matmul_nn_apply {φ₁ φ₂ : FTy} (x : FVec Ideal S512x1024 φ₁) (w : FVec Ideal S1024x1024 φ₂) (p : Fin 512) (d : Fin 1024) :
    matmul dot_S512x1024_S1024x1024_S512x1024_1_0_0_1_n_n none x w (constant S512x1024 .f32 0x00000000#32) (ix2 p d)
      = ∑ c : Fin 1024, x (ix2 p c) * w (ix2 c d) := by
  refine (Ideal.matmul_constant_zero_apply dot_S512x1024_S1024x1024_S512x1024_1_0_0_1_n_n none x w (ix2 p d)).trans ?_
  rw [← Equiv.sum_comp (contrEquiv1 dot_S512x1024_S1024x1024_S512x1024_1_0_0_1_n_n 1024 rfl rfl).symm]
  refine Finset.sum_congr rfl fun c _ => ?_
  have hc := contrEquiv1_symm_val dot_S512x1024_S1024x1024_S512x1024_1_0_0_1_n_n 1024 rfl rfl c
  have el : dot_S512x1024_S1024x1024_S512x1024_1_0_0_1_n_n.lhsIdx (ix2 p d) ((contrEquiv1 dot_S512x1024_S1024x1024_S512x1024_1_0_0_1_n_n 1024 rfl rfl).symm c) = ix2 p c := funext fun a => Fin.ext (by
    match a with
    | ⟨0, _⟩ => exact nn_lhs_0 _ _
    | ⟨1, _⟩ => exact (nn_lhs_1 _ _).trans hc)
  have er : dot_S512x1024_S1024x1024_S512x1024_1_0_0_1_n_n.rhsIdx (ix2 p d) ((contrEquiv1 dot_S512x1024_S1024x1024_S512x1024_1_0_0_1_n_n 1024 rfl rfl).symm c) = ix2 c d := funext fun a => Fin.ext (by
    match a with
    | ⟨0, _⟩ => exact (nn_rhs_0 _ _).trans hc
    | ⟨1, _⟩ => exact nn_rhs_1 _ _)
  rw [el, er]

theorem nt_lhs_0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem nt_lhs_1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem nt_rhs_0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem nt_rhs_1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- A 512 × 1024 block against the ROWS of a 1024 × 1024 matrix (the second operand transposed), into a zero
    accumulator: at (p, k) the sum over c of the block's row p against the matrix's row k. -/
theorem matmul_nt_apply {φ₁ φ₂ : FTy} (x : FVec Ideal S512x1024 φ₁) (w : FVec Ideal S1024x1024 φ₂) (p : Fin 512) (k : Fin 1024) :
    matmul dot_S512x1024_S1024x1024_S512x1024_1_1_0_0_n_n none x w (constant S512x1024 .f32 0x00000000#32) (ix2 p k)
      = ∑ c : Fin 1024, x (ix2 p c) * w (ix2 k c) := by
  refine (Ideal.matmul_constant_zero_apply dot_S512x1024_S1024x1024_S512x1024_1_1_0_0_n_n none x w (ix2 p k)).trans ?_
  rw [← Equiv.sum_comp (contrEquiv1 dot_S512x1024_S1024x1024_S512x1024_1_1_0_0_n_n 1024 rfl rfl).symm]
  refine Finset.sum_congr rfl fun c _ => ?_
  have hc := contrEquiv1_symm_val dot_S512x1024_S1024x1024_S512x1024_1_1_0_0_n_n 1024 rfl rfl c
  have el : dot_S512x1024_S1024x1024_S512x1024_1_1_0_0_n_n.lhsIdx (ix2 p k) ((contrEquiv1 dot_S512x1024_S1024x1024_S512x1024_1_1_0_0_n_n 1024 rfl rfl).symm c) = ix2 p c := funext fun a => Fin.ext (by
    match a with
    | ⟨0, _⟩ => exact nt_lhs_0 _ _
    | ⟨1, _⟩ => exact (nt_lhs_1 _ _).trans hc)
  have er : dot_S512x1024_S1024x1024_S512x1024_1_1_0_0_n_n.rhsIdx (ix2 p k) ((contrEquiv1 dot_S512x1024_S1024x1024_S512x1024_1_1_0_0_n_n 1024 rfl rfl).symm c) = ix2 k c := funext fun a => Fin.ext (by
    match a with
    | ⟨0, _⟩ => exact nt_rhs_0 _ _
    | ⟨1, _⟩ => exact (nt_rhs_1 _ _).trans hc)
  rw [el, er]

/-! ## A row's maximum and a row's sum -/

/-- The index over row `p` with `k` put back on the reduced axis is `(p, k)`. -/
theorem lift_row (h : S512x1024.Reduces [1] S512) (p : Fin 512) (k : Fin 1024) : h.lift (ix1 p) k = ix2 p k :=
  funext fun a => Fin.ext (by match a with | ⟨0, _⟩ => rfl | ⟨1, _⟩ => rfl)

/-- A row's maximum, as the kernel takes it: the fold of `max` from -∞ over the row's 1024 entries. -/
theorem rowmax_apply (src : FVec Ideal S512x1024 .f32) (h : S512x1024.Reduces [1] S512) (hφ : FKind.Formats .f32)
    (hacc : (0xFF800000#32 : BitVec 32) = FKind.maximumf.neutral .f32 hφ) (p : Fin 512) :
    multiReduction .maximumf [1] S512 src 0xFF800000#32 h hφ hacc (ix1 p)
      = Finset.univ.fold max ⊥ (fun k : Fin 1024 => src (ix2 p k)) := by
  refine (Ideal.multiReduction_maximumf_single src _ h hφ hacc (ix1 p)).trans ?_
  show (Finset.univ : Finset (Fin 1024)).fold max (Ideal.ofBits .f32 0xFF800000#32) (fun k => src (h.lift (ix1 p) k)) = _
  rw [FlashConsts.ofBits_neg_inf]
  exact congrArg (fun f => (Finset.univ : Finset (Fin 1024)).fold max ⊥ f) (funext fun k => congrArg src (lift_row h p k))

/-- A row's sum, as the kernel takes it: the sum of the row's 1024 entries. -/
theorem rowsum_apply (src : FVec Ideal S512x1024 .f32) (h : S512x1024.Reduces [1] S512) (hφ : FKind.Formats .f32)
    (hacc : (0x00000000#32 : BitVec 32) = FKind.add.neutral .f32 hφ) (p : Fin 512) :
    multiReduction .add [1] S512 src 0x00000000#32 h hφ hacc (ix1 p) = ∑ k : Fin 1024, src (ix2 p k) := by
  refine (Ideal.multiReduction_add_single src _ h hφ hacc (ix1 p)).trans ?_
  show ∑ k : Fin 1024, src (h.lift (ix1 p) k) = _
  exact Finset.sum_congr rfl fun k _ => congrArg src (lift_row h p k)

/-! ## The projections -/

/-- Region 0's first store: a 512-row block of the keys times the key weights. -/
theorem proj_block_apply (x : Vec Ideal S512x1024 .f32) (w : Vec Ideal S1024x1024 .f32) (p : Fin 512) (d : Fin 1024) :
    k0_pay1 (F := Ideal) x w (ix2 p d) = ∑ c : Fin 1024, x (ix2 p c) * w (ix2 c d) := by
  unfold k0_pay1
  exact matmul_nn_apply (truncf .bf16 x bitsLt_bf16_f32) (truncf .bf16 w bitsLt_bf16_f32) p d

/-- Region 0's second store: a 512-row block of the values times the value weights. -/
theorem proj_block_apply' (x : Vec Ideal S512x1024 .f32) (w : Vec Ideal S1024x1024 .f32) (p : Fin 512) (d : Fin 1024) :
    k0_pay2 (F := Ideal) x w (ix2 p d) = ∑ c : Fin 1024, x (ix2 p c) * w (ix2 c d) := by
  unfold k0_pay2
  exact matmul_nn_apply (truncf .bf16 x bitsLt_bf16_f32) (truncf .bf16 w bitsLt_bf16_f32) p d

/-- The cached query tile: the query block times the query weights. -/
theorem qproj_apply (qb : Vec Ideal S512x1024 .f32) (wq : Vec Ideal S1024x1024 .f32) (p : Fin 512) (c : Fin 1024) :
    qproj (F := Ideal) qb wq (ix2 p c) = ∑ c' : Fin 1024, qb (ix2 p c') * wq (ix2 c' c) := by
  unfold qproj k1_pay7
  refine (congrFun (shapeCast_self _ shapeCasts_S512x1024_S512x1024) (ix2 p c)).trans ?_
  exact matmul_nn_apply (truncf .bf16 qb bitsLt_bf16_f32) (truncf .bf16 wq bitsLt_bf16_f32) p c

/-! ## One key/value tile -/

variable (qs : Vec Ideal S512x1024 .bf16) (kb vb : Vec Ideal S1024x1024 .bf16)

/-- The tile's scaled scores: query row p against key row k, times 1/64. -/
theorem scores_apply (p : Fin 512) (k : Fin 1024) :
    k1_pay8 (F := Ideal) qs kb (ix2 p k) = (∑ c : Fin 1024, qs (ix2 p c) * kb (ix2 k c)) * Ideal.ofBits .f32 0x3C800000#32 := by
  unfold k1_pay8
  show matmul dot_S512x1024_S1024x1024_S512x1024_1_1_0_0_n_n none qs (shapeCast S1024x1024 kb shapeCasts_S1024x1024_S1024x1024) (constant S512x1024 .f32 0x00000000#32) (ix2 p k)
      * Ideal.ofBits .f32 0x3C800000#32 = _
  refine congrArg (· * Ideal.ofBits .f32 0x3C800000#32) ?_
  refine (matmul_nt_apply qs _ p k).trans ?_
  exact Finset.sum_congr rfl fun c _ => congrArg (qs (ix2 p c) * ·) (congrFun (shapeCast_self kb _) (ix2 k c))

/-- The new running maximum: the old one against the maximum of the tile's scores in the row. -/
theorem newmax_apply (m : Vec Ideal S512x1 .f32) (p : Fin 512) :
    k1_pay9 (F := Ideal) qs kb m (ix2 p 0)
      = max (m (ix2 p 0)) (Finset.univ.fold max ⊥ (fun k : Fin 1024 => k1_pay8 (F := Ideal) qs kb (ix2 p k))) := by
  unfold k1_pay9
  show max (m (ix2 p 0)) (shapeCast S512x1 _ shapeCasts_S512_S512x1 (ix2 p 0)) = _
  refine congrArg (max (m (ix2 p 0))) ?_
  refine (ColumnLayout.shapeCast_a_a1_apply _ _ p 0).trans ?_
  exact rowmax_apply _ _ _ _ p

/-- The rescaling factor: exp (old maximum - new maximum). -/
theorem rescale_apply (m : Vec Ideal S512x1 .f32) (i : S512x1.Idx) :
    k1_pay10 (F := Ideal) qs kb m i = Ideal.exp (m i - k1_pay9 (F := Ideal) qs kb m i) := rfl

/-- The tile's weights: exp (score - new maximum of the row). -/
theorem weights_apply (m : Vec Ideal S512x1 .f32) (p : Fin 512) (k : Fin 1024) :
    k1_pay11 (F := Ideal) qs kb m (ix2 p k)
      = Ideal.exp (k1_pay8 (F := Ideal) qs kb (ix2 p k) - k1_pay9 (F := Ideal) qs kb m (ix2 p 0)) := by
  unfold k1_pay11
  show Ideal.exp (k1_pay8 (F := Ideal) qs kb (ix2 p k)
      - broadcastTo S512x1024 (k1_pay9 (F := Ideal) qs kb m) broadcasts_S512x1_S512x1024 (ix2 p k)) = _
  exact congrArg (fun z => Ideal.exp (k1_pay8 (F := Ideal) qs kb (ix2 p k) - z))
    (ColumnLayout.broadcastTo_a1_ab_apply _ _ p k)

/-- The new normaliser: the old one rescaled, plus the sum of the tile's weights in the row. -/
theorem newnorm_apply (m l : Vec Ideal S512x1 .f32) (p : Fin 512) :
    k1_pay12 (F := Ideal) qs kb m l (ix2 p 0)
      = k1_pay10 (F := Ideal) qs kb m (ix2 p 0) * l (ix2 p 0) + ∑ k : Fin 1024, k1_pay11 (F := Ideal) qs kb m (ix2 p k) := by
  unfold k1_pay12
  refine (congrFun (shapeCast_self _ shapeCasts_S512x1_S512x1) (ix2 p 0)).trans ?_
  show k1_pay10 (F := Ideal) qs kb m (ix2 p 0) * l (ix2 p 0) + shapeCast S512x1 _ shapeCasts_S512_S512x1 (ix2 p 0) = _
  refine congrArg (k1_pay10 (F := Ideal) qs kb m (ix2 p 0) * l (ix2 p 0) + ·) ?_
  refine (ColumnLayout.shapeCast_a_a1_apply _ _ p 0).trans ?_
  exact rowsum_apply _ _ _ _ p

/-- The new accumulator: the old one rescaled, plus the tile's weights against the value tile's column. -/
theorem newacc_apply (m : Vec Ideal S512x1 .f32) (acc : Vec Ideal S512x1024 .f32) (p : Fin 512) (d : Fin 1024) :
    k1_pay13 (F := Ideal) qs kb vb m acc (ix2 p d)
      = k1_pay10 (F := Ideal) qs kb m (ix2 p 0) * acc (ix2 p d)
        + ∑ k : Fin 1024, k1_pay11 (F := Ideal) qs kb m (ix2 p k) * vb (ix2 k d) := by
  unfold k1_pay13
  show broadcastTo S512x1024 (k1_pay10 (F := Ideal) qs kb m) broadcasts_S512x1_S512x1024 (ix2 p d) * acc (ix2 p d)
      + matmul dot_S512x1024_S1024x1024_S512x1024_1_0_0_1_n_n none (truncf .bf16 (k1_pay11 (F := Ideal) qs kb m) bitsLt_bf16_f32)
          (shapeCast S1024x1024 vb shapeCasts_S1024x1024_S1024x1024) (constant S512x1024 .f32 0x00000000#32) (ix2 p d) = _
  have e1 := ColumnLayout.broadcastTo_a1_ab_apply (k1_pay10 (F := Ideal) qs kb m) broadcasts_S512x1_S512x1024 p d
  have e2 := matmul_nn_apply (φ₁ := .bf16) (φ₂ := .bf16) (truncf .bf16 (k1_pay11 (F := Ideal) qs kb m) bitsLt_bf16_f32)
    (shapeCast S1024x1024 vb shapeCasts_S1024x1024_S1024x1024) p d
  refine (congr (congrArg HAdd.hAdd (congrArg (· * acc (ix2 p d)) e1)) e2).trans ?_
  refine congrArg (k1_pay10 (F := Ideal) qs kb m (ix2 p 0) * acc (ix2 p d) + ·) ?_
  exact Finset.sum_congr rfl fun k _ =>
    congrArg (k1_pay11 (F := Ideal) qs kb m (ix2 p k) * ·) (congrFun (shapeCast_self vb _) (ix2 k d))

/-- The output: the accumulator over the row's normaliser. -/
theorem quotient_apply (acc : Vec Ideal S512x1024 .f32) (l : Vec Ideal S512x1 .f32) (p : Fin 512) (d : Fin 1024) :
    k1_pay3 (F := Ideal) acc l (ix2 p d) = Ideal.div (acc (ix2 p d)) (l (ix2 p 0)) := by
  unfold k1_pay3
  exact congrArg (Ideal.div (acc (ix2 p d))) (ColumnLayout.broadcastTo_a1_ab_apply l _ p d)

/-! ## The stores that only copy, and the reset values -/

theorem keep_acc (v : FVec Ideal S512x1024 .f32) : k1_pay1 (F := Ideal) v = v := by
  unfold k1_pay1; exact shapeCast_self _ _
theorem keep_max (v : FVec Ideal S512x1 .f32) : k1_pay2 (F := Ideal) v = v := by
  unfold k1_pay2; exact shapeCast_self _ _
/-- The maximum is reset to -∞, -/
theorem reset_max (i : S512x1.Idx) : k1_pay4 (F := Ideal) i = ⊥ := by
  unfold k1_pay4
  exact (congrFun (shapeCast_self _ shapeCasts_S512x1_S512x1) i).trans FlashConsts.ofBits_neg_inf
/-- the normaliser to 0, -/
theorem reset_norm (i : S512x1.Idx) : k1_pay5 (F := Ideal) i = 0 := by
  unfold k1_pay5
  exact (congrFun (shapeCast_self _ shapeCasts_S512x1_S512x1) i).trans Ideal.ofBits_zero_f32
/-- and the accumulator to 0. -/
theorem reset_acc (i : S512x1024.Idx) : k1_pay6 (F := Ideal) i = 0 := by
  unfold k1_pay6
  exact (congrFun (shapeCast_self _ shapeCasts_S512x1024_S512x1024) i).trans Ideal.ofBits_zero_f32

end Cert.KernelIdeal.Flash

end
-- ==== Proof.KernelProj.lean ====
/-
  What region 0 leaves in the two projected arrays, at the ideal instance: entry (s, d) of the projected keys is the sum over
  c of key (s, c) times key weight (c, d), and the same for the values — each 512-row block is the body's matrix product of
  the block with the whole weight matrix, and the sixteen blocks tile the array.
-/
import proofs.«128656_j27453430956590_2_alg».proof.Proof.FrameRun
import proofs.«128656_j27453430956590_2_alg».proof.Proof.FlashPayload
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Flash

/-- An 8192 × 1024 array times a 1024 × 1024 matrix, entry by entry, on the extended reals. -/
def projArr (x : S8192x1024.Idx → EReal) (w : S1024x1024.Idx → EReal) : S8192x1024.Idx → EReal :=
  fun i => ∑ cc : Fin 1024, x (ix2 ⟨(i 0).val, idx2_lt0 i⟩ cc) * w (ix2 cc ⟨(i 1).val, idx2_lt1 i⟩)

theorem projArr_apply (x : S8192x1024.Idx → EReal) (w : S1024x1024.Idx → EReal) (s : Fin 8192) (d : Fin 1024) :
    projArr x w (ix2 s d) = ∑ cc : Fin 1024, x (ix2 s cc) * w (ix2 cc d) := rfl

/-- The printed index maps of region 0, decided over the grid: the input and output blocks move with the point, the weights
    never. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem emb0_4 (t : Fin cfg0.N) (p : Fin 512) (d : Fin 1024) :
    ((cfg0.win 4).blk t).view.emb (ix2 p d) = ix2 ⟨512 * t.val + p.val, by have := t.isLt; have hN : cfg0.N = 16 := N_0; have := p.isLt; omega⟩ d := by
  have e := idx0 t
  funext a; apply Fin.ext
  match a with
  | ⟨0, _⟩ => show win0_4.index t (0 : Fin 2) * 512 + 1 * p.val = 512 * t.val + p.val; rw [e.2.2.2.2.2.2.2.2.1]; omega
  | ⟨1, _⟩ => show win0_4.index t (1 : Fin 2) * 1024 + 1 * d.val = d.val; rw [e.2.2.2.2.2.2.2.2.2.1]; omega
theorem emb0_5 (t : Fin cfg0.N) (p : Fin 512) (d : Fin 1024) :
    ((cfg0.win 5).blk t).view.emb (ix2 p d) = ix2 ⟨512 * t.val + p.val, by have := t.isLt; have hN : cfg0.N = 16 := N_0; have := p.isLt; omega⟩ d := by
  have e := idx0 t
  funext a; apply Fin.ext
  match a with
  | ⟨0, _⟩ => show win0_5.index t (0 : Fin 2) * 512 + 1 * p.val = 512 * t.val + p.val; rw [e.2.2.2.2.2.2.2.2.2.2.1]; omega
  | ⟨1, _⟩ => show win0_5.index t (1 : Fin 2) * 1024 + 1 * d.val = d.val; rw [e.2.2.2.2.2.2.2.2.2.2.2]; omega

section Region0
variable (V : (c : Dev nD) → (b : Ref sig .tc) → Buf (Elt Ideal) ((c : Thread nD τ).loc b))

theorem iblk0_0_apply (c : Dev nD) (t : Fin cfg0.N) (p : Fin 512) (cc : Fin 1024) :
    iblk0 V c 0 t (ix2 p cc) = V c main_arg1 (ix2 ⟨512 * t.val + p.val, by have := t.isLt; have hN : cfg0.N = 16 := N_0; have := p.isLt; omega⟩ cc) := by
  show V c main_arg1 (((cfg0.win 0).blk t).view.emb (ix2 p cc)) = _
  refine congrArg _ ?_
  have e := idx0 t
  funext a; apply Fin.ext
  match a with
  | ⟨0, _⟩ => show win0_0.index t (0 : Fin 2) * 512 + 1 * p.val = 512 * t.val + p.val; rw [e.1]; omega
  | ⟨1, _⟩ => show win0_0.index t (1 : Fin 2) * 1024 + 1 * cc.val = cc.val; rw [e.2.1]; omega
theorem iblk0_1_apply (c : Dev nD) (t : Fin cfg0.N) (cc : Fin 1024) (d : Fin 1024) :
    iblk0 V c 1 t (ix2 cc d) = V c main_arg4 (ix2 cc d) := by
  show V c main_arg4 (((cfg0.win 1).blk t).view.emb (ix2 cc d)) = _
  refine congrArg _ ?_
  have e := idx0 t
  funext a; apply Fin.ext
  match a with
  | ⟨0, _⟩ => show win0_1.index t (0 : Fin 2) * 1024 + 1 * cc.val = cc.val; rw [e.2.2.1]; omega
  | ⟨1, _⟩ => show win0_1.index t (1 : Fin 2) * 1024 + 1 * d.val = d.val; rw [e.2.2.2.1]; omega
theorem iblk0_2_apply (c : Dev nD) (t : Fin cfg0.N) (p : Fin 512) (cc : Fin 1024) :
    iblk0 V c 2 t (ix2 p cc) = V c main_arg2 (ix2 ⟨512 * t.val + p.val, by have := t.isLt; have hN : cfg0.N = 16 := N_0; have := p.isLt; omega⟩ cc) := by
  show V c main_arg2 (((cfg0.win 2).blk t).view.emb (ix2 p cc)) = _
  refine congrArg _ ?_
  have e := idx0 t
  funext a; apply Fin.ext
  match a with
  | ⟨0, _⟩ => show win0_2.index t (0 : Fin 2) * 512 + 1 * p.val = 512 * t.val + p.val; rw [e.2.2.2.2.1]; omega
  | ⟨1, _⟩ => show win0_2.index t (1 : Fin 2) * 1024 + 1 * cc.val = cc.val; rw [e.2.2.2.2.2.1]; omega
theorem iblk0_3_apply (c : Dev nD) (t : Fin cfg0.N) (cc : Fin 1024) (d : Fin 1024) :
    iblk0 V c 3 t (ix2 cc d) = V c main_arg5 (ix2 cc d) := by
  show V c main_arg5 (((cfg0.win 3).blk t).view.emb (ix2 cc d)) = _
  refine congrArg _ ?_
  have e := idx0 t
  funext a; apply Fin.ext
  match a with
  | ⟨0, _⟩ => show win0_3.index t (0 : Fin 2) * 1024 + 1 * cc.val = cc.val; rw [e.2.2.2.2.2.2.1]; omega
  | ⟨1, _⟩ => show win0_3.index t (1 : Fin 2) * 1024 + 1 * d.val = d.val; rw [e.2.2.2.2.2.2.2.1]; omega

/-- What grid point `t` of region 0 writes back into the projected keys: block `t` of the product array. -/
theorem flushed0_4 (c : Dev nD) (t : Fin cfg0.N) :
    (dat0 V c).flushed 4 t = ((cfg0.win 4).blk t).view.read (Elt Ideal) (projArr (V c main_arg1) (V c main_arg4)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x1024) hz2]
  funext y
  obtain ⟨p, d, rfl⟩ : ∃ (p : Fin 512) (d : Fin 1024), y = ix2 p d := ⟨y 0, y 1, eq_ix2 y⟩
  show k0_pay1 (F := Ideal) (iblk0 V c 0 t) (iblk0 V c 1 t) (ix2 p d) = projArr (V c main_arg1) (V c main_arg4) (((cfg0.win 4).blk t).view.emb (ix2 p d))
  rw [proj_block_apply, emb0_4]
  unfold projArr
  refine Finset.sum_congr rfl fun cc _ => ?_
  rw [iblk0_0_apply, iblk0_1_apply]

theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

theorem cover0_4 (i : S8192x1024.Idx) : ∃ t : Fin cfg0.N, (cfg0.win 4).flush t = true ∧ i ∈ ((cfg0.win 4).blk t).view.set := by
  have hi0 : (i 0).val < 8192 := idx2_lt0 i
  have hi1 : (i 1).val < 1024 := idx2_lt1 i
  have hN : cfg0.N = 16 := N_0
  let t : Fin cfg0.N := ⟨(i 0).val / 512, by omega⟩
  have ht : t.val = (i 0).val / 512 := rfl
  refine ⟨t, flush0_4 t, ?_⟩
  rw [mem_blk0_4]
  have e := idx0 t
  intro a
  match a with
  | ⟨0, _⟩ => show win0_4.index t (0 : Fin 2) * 512 ≤ (i 0).val ∧ (i 0).val < win0_4.index t (0 : Fin 2) * 512 + 512; rw [e.2.2.2.2.2.2.2.2.1, ht]; omega
  | ⟨1, _⟩ => show win0_4.index t (1 : Fin 2) * 1024 ≤ (i 1).val ∧ (i 1).val < win0_4.index t (1 : Fin 2) * 1024 + 1024; rw [e.2.2.2.2.2.2.2.2.2.1]; omega

/-- The projected keys after region 0: the input array times its weights, entry by entry. -/
theorem final0_4 (c : Dev nD) : (dat0 V c).arrAt 4 cfg0.N = projArr (V c main_arg1) (V c main_arg4) :=
  (dat0 V c).arrAt_eq_of_cover 4 _ (fun t _ => flushed0_4 V c t) cover0_4

/-- What grid point `t` of region 0 writes back into the projected values: block `t` of the product array. -/
theorem flushed0_5 (c : Dev nD) (t : Fin cfg0.N) :
    (dat0 V c).flushed 5 t = ((cfg0.win 5).blk t).view.read (Elt Ideal) (projArr (V c main_arg2) (V c main_arg5)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S1024x1024) hz2]
  funext y
  obtain ⟨p, d, rfl⟩ : ∃ (p : Fin 512) (d : Fin 1024), y = ix2 p d := ⟨y 0, y 1, eq_ix2 y⟩
  show k0_pay2 (F := Ideal) (iblk0 V c 2 t) (iblk0 V c 3 t) (ix2 p d) = projArr (V c main_arg2) (V c main_arg5) (((cfg0.win 5).blk t).view.emb (ix2 p d))
  rw [proj_block_apply', emb0_5]
  unfold projArr
  refine Finset.sum_congr rfl fun cc _ => ?_
  rw [iblk0_2_apply, iblk0_3_apply]

theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

theorem cover0_5 (i : S8192x1024.Idx) : ∃ t : Fin cfg0.N, (cfg0.win 5).flush t = true ∧ i ∈ ((cfg0.win 5).blk t).view.set := by
  have hi0 : (i 0).val < 8192 := idx2_lt0 i
  have hi1 : (i 1).val < 1024 := idx2_lt1 i
  have hN : cfg0.N = 16 := N_0
  let t : Fin cfg0.N := ⟨(i 0).val / 512, by omega⟩
  have ht : t.val = (i 0).val / 512 := rfl
  refine ⟨t, flush0_5 t, ?_⟩
  rw [mem_blk0_5]
  have e := idx0 t
  intro a
  match a with
  | ⟨0, _⟩ => show win0_5.index t (0 : Fin 2) * 512 ≤ (i 0).val ∧ (i 0).val < win0_5.index t (0 : Fin 2) * 512 + 512; rw [e.2.2.2.2.2.2.2.2.2.2.1, ht]; omega
  | ⟨1, _⟩ => show win0_5.index t (1 : Fin 2) * 1024 ≤ (i 1).val ∧ (i 1).val < win0_5.index t (1 : Fin 2) * 1024 + 1024; rw [e.2.2.2.2.2.2.2.2.2.2.2]; omega

/-- The projected values after region 0: the input array times its weights, entry by entry. -/
theorem final0_5 (c : Dev nD) : (dat0 V c).arrAt 5 cfg0.N = projArr (V c main_arg2) (V c main_arg5) :=
  (dat0 V c).arrAt_eq_of_cover 5 _ (fun t _ => flushed0_5 V c t) cover0_5

end Region0

end Cert.KernelIdeal.Fr

end
-- ==== Proof.LibOnlineSoftmax.lean ====
/-
  The online (streaming) softmax-weighted sum, over the extended reals.

  A softmax-weighted sum  out d = ∑ i, (exp (x i - M) / ∑ i', exp (x i' - M)) * w i d,  M the maximum of the scores
  x, can be evaluated block by block without ever holding all the scores: keep a running maximum m, a running
  normaliser l and an unnormalised accumulator acc; a new block of scores S and values V updates them by
      m'     = max m (max of S),
      l'     = exp (m - m') * l     + ∑ k, exp (S k - m'),
      acc' d = exp (m - m') * acc d + ∑ k, exp (S k - m') * V k d,
  from m = -∞, l = 0, acc = 0; at the end out d = acc d / l. Rescaling by exp (m - m') re-bases everything summed so
  far from the old maximum to the new one, because exp (m - m') * exp (x - m) = exp (x - m').

  This file states the recursion (step, run) over the extended reals with the ideal float instance's exp and division
  (exp ⊥ = 0, so the first block's rescaling factor is 0 and the start values do not matter), and proves that for
  REAL scores and values, nonempty blocks and at least one block, the blockwise evaluation equals the softmax-weighted
  sum over all the scores at once (online_eq_softmax), for any way e of numbering the (block, position) pairs.
  Nothing here mentions a program.
-/
import Idealize.ShloMosaic.PureOps.Ideal

noncomputable section

namespace OnlineSoftmax

open scoped BigOperators
open Idealize.ShloMosaic

variable {n : ℕ} {K D ι : Type*} [Fintype K] [Fintype ι]

/-! ## The recursion -/

/-- What is carried from block to block for one query row: the running maximum, the running normaliser and the
    unnormalised accumulator (one entry per output column). -/
structure Row (D : Type*) where
  m : EReal
  l : EReal
  acc : D → EReal

/-- Before any block: maximum -∞, normaliser 0, accumulator 0. -/
def start : Row D := ⟨⊥, 0, fun _ => 0⟩

/-- One block of scores S and values V: the new maximum, and the old normaliser and accumulator re-based to it plus
    the block's own terms. -/
def step (S : K → EReal) (V : K → D → EReal) (r : Row D) : Row D :=
  ⟨max r.m (Finset.univ.fold max ⊥ S),
   Ideal.exp (r.m - max r.m (Finset.univ.fold max ⊥ S)) * r.l
     + ∑ k, Ideal.exp (S k - max r.m (Finset.univ.fold max ⊥ S)),
   fun d => Ideal.exp (r.m - max r.m (Finset.univ.fold max ⊥ S)) * r.acc d
     + ∑ k, Ideal.exp (S k - max r.m (Finset.univ.fold max ⊥ S)) * V k d⟩

/-- The state after the first i of the n blocks (and after all of them for i ≥ n). -/
def run (S : Fin n → K → EReal) (V : Fin n → K → D → EReal) : ℕ → Row D
  | 0 => start
  | i + 1 => if h : i < n then step (S ⟨i, h⟩) (V ⟨i, h⟩) (run S V i) else run S V i

/-- Unfolding the recursion at a block that exists. -/
theorem run_succ (S : Fin n → K → EReal) (V : Fin n → K → D → EReal) {i : ℕ} (h : i < n) :
    run S V (i + 1) = step (S ⟨i, h⟩) (V ⟨i, h⟩) (run S V i) := by
  rw [run, dif_pos h]

/-! ## Small facts about the extended reals -/

/-- The coercion of a finite real sum is the sum of the coercions. -/
theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, folded from -∞, of finitely many and at least one real numbers is a real number. -/
theorem fold_max_real {α : Type*} (T : Finset α) (hT : T.Nonempty) (f : α → EReal) (hf : ∀ a ∈ T, ∃ r : ℝ, f a = r) :
    ∃ r : ℝ, T.fold max ⊥ f = r := by
  have h1 : T.fold max ⊥ f ≠ ⊥ := by
    obtain ⟨a, ha⟩ := hT
    obtain ⟨r, hr⟩ := hf a ha
    have : ⊥ < T.fold max ⊥ f := (Finset.lt_fold_max _).2 (Or.inr ⟨a, ha, hr ▸ EReal.bot_lt_coe r⟩)
    exact this.ne'
  have h2 : T.fold max ⊥ f ≠ ⊤ := by
    have : T.fold max ⊥ f < ⊤ := (Finset.fold_max_lt _).2 ⟨bot_lt_top, fun a ha => by
      obtain ⟨r, hr⟩ := hf a ha
      rw [hr]
      exact EReal.coe_lt_top r⟩
    exact this.ne
  exact ⟨_, (EReal.coe_toReal h2 h1).symm⟩

/-- A maximum over all the pairs, folded from -∞, is the maximum over the blocks of each block's maximum. -/
theorem fold_max_blocks {α β : Type*} [Fintype α] [Fintype β] (e : α × β ≃ ι) (g : ι → EReal) :
    Finset.univ.fold max ⊥ g = Finset.univ.fold max ⊥ (fun a : α => Finset.univ.fold max ⊥ (fun b : β => g (e (a, b)))) := by
  refine le_antisymm ?_ ?_
  · refine (Finset.fold_max_le _).2 ⟨bot_le, fun i _ => ?_⟩
    refine (Finset.le_fold_max _).2 (Or.inr ⟨(e.symm i).1, Finset.mem_univ _, ?_⟩)
    refine (Finset.le_fold_max _).2 (Or.inr ⟨(e.symm i).2, Finset.mem_univ _, ?_⟩)
    rw [Prod.mk.eta, Equiv.apply_symm_apply]
  · refine (Finset.fold_max_le _).2 ⟨bot_le, fun a _ => ?_⟩
    refine (Finset.fold_max_le _).2 ⟨bot_le, fun b _ => ?_⟩
    exact (Finset.le_fold_max _).2 (Or.inr ⟨e (a, b), Finset.mem_univ _, le_rfl⟩)

/-! ## The blocks before a given one -/

/-- The blocks numbered below i. -/
def before (n i : ℕ) : Finset (Fin n) := Finset.univ.filter (fun j => j.val < i)

/-- No block is numbered below 0. -/
theorem before_zero : before n 0 = ∅ := by
  ext j; simp [before]

/-- The blocks below i + 1 are block i and the blocks below i. -/
theorem before_succ {i : ℕ} (h : i < n) : before n (i + 1) = insert ⟨i, h⟩ (before n i) := by
  ext j
  simp only [before, Finset.mem_filter, Finset.mem_univ, true_and, Finset.mem_insert, Fin.ext_iff]
  omega

/-- Block i is not among the blocks below i. -/
theorem not_mem_before {i : ℕ} (h : i < n) : (⟨i, h⟩ : Fin n) ∉ before n i := by
  simp [before]

/-- Every block is numbered below n. -/
theorem before_self : before n n = Finset.univ := by
  ext j; simp [before]

/-! ## The invariant, for real scores and values -/

section Real

variable (s : Fin n → K → ℝ) (v : Fin n → K → D → ℝ)

/-- The maximum, from -∞, of the scores of the blocks before i. -/
def runMax (i : ℕ) : EReal :=
  (before n i).fold max ⊥ (fun j => Finset.univ.fold max ⊥ (fun k => (s j k : EReal)))

/-- After i ≤ n blocks of real scores and values: the running maximum is the maximum M of the scores seen (a real
    number as soon as a block has been seen), the normaliser is the sum of exp (score - M) over them, and the
    accumulator the sum of exp (score - M) times the value. -/
theorem run_eq [Nonempty K] (i : ℕ) (hi : i ≤ n) :
    ∃ M : ℝ, ((before n i).Nonempty → runMax s i = M) ∧
      (run (fun j k => (s j k : EReal)) (fun j k d => (v j k d : EReal)) i).m = runMax s i ∧
      (run (fun j k => (s j k : EReal)) (fun j k d => (v j k d : EReal)) i).l
        = ((∑ j ∈ before n i, ∑ k, Real.exp (s j k - M) : ℝ) : EReal) ∧
      ∀ d, (run (fun j k => (s j k : EReal)) (fun j k d => (v j k d : EReal)) i).acc d
        = ((∑ j ∈ before n i, ∑ k, Real.exp (s j k - M) * v j k d : ℝ) : EReal) := by
  induction i with
  | zero =>
    refine ⟨0, fun h => ?_, ?_, ?_, fun d => ?_⟩
    · rw [before_zero] at h; exact absurd h Finset.not_nonempty_empty
    · show (⊥ : EReal) = runMax s 0
      rw [runMax, before_zero, Finset.fold_empty]
    · show (0 : EReal) = _
      rw [before_zero, Finset.sum_empty, EReal.coe_zero]
    · show (0 : EReal) = _
      rw [before_zero, Finset.sum_empty, EReal.coe_zero]
  | succ i ih =>
    have h : i < n := hi
    obtain ⟨M, hM, hm, hl, hacc⟩ := ih (le_of_lt h)
    have hmax : max (runMax s i) (Finset.univ.fold max ⊥ (fun k => (s ⟨i, h⟩ k : EReal))) = runMax s (i + 1) := by
      rw [runMax, runMax, before_succ h, Finset.fold_insert (not_mem_before h), max_comm]
    obtain ⟨M', hM'⟩ : ∃ r : ℝ, runMax s (i + 1) = r :=
      fold_max_real _ (by rw [before_succ h]; exact Finset.insert_nonempty _ _) _
        (fun j _ => fold_max_real _ Finset.univ_nonempty _ (fun k _ => ⟨_, rfl⟩))
    -- re-basing the sums over the blocks seen so far from the old maximum to the new one
    have hscale : ∀ g : Fin n → K → ℝ,
        Ideal.exp (runMax s i - (M' : EReal)) * ((∑ j ∈ before n i, ∑ k, Real.exp (s j k - M) * g j k : ℝ) : EReal)
          = ((∑ j ∈ before n i, ∑ k, Real.exp (s j k - M') * g j k : ℝ) : EReal) := by
      intro g
      rcases (before n i).eq_empty_or_nonempty with he | hne
      · rw [he, Finset.sum_empty, Finset.sum_empty, EReal.coe_zero, mul_zero]
      · rw [hM hne, ← EReal.coe_sub, Ideal.exp_coe, ← EReal.coe_mul, Finset.mul_sum]
        refine congrArg _ (Finset.sum_congr rfl fun j _ => ?_)
        rw [Finset.mul_sum]
        refine Finset.sum_congr rfl fun k _ => ?_
        rw [← mul_assoc, ← Real.exp_add]
        congr 2
        ring
    refine ⟨M', fun _ => hM', ?_, ?_, fun d => ?_⟩
    · rw [run_succ _ _ h]
      show max _ _ = _
      rw [hm, hmax]
    · rw [run_succ _ _ h]
      show Ideal.exp (_ - max _ _) * _ + ∑ k, Ideal.exp (_ - max _ _) = _
      rw [hm, hmax, hM', hl]
      have h1 := hscale (fun _ _ => 1)
      simp only [mul_one] at h1
      rw [h1]
      simp only [← EReal.coe_sub, Ideal.exp_coe]
      rw [← coe_sum, ← EReal.coe_add, before_succ h, Finset.sum_insert (not_mem_before h), add_comm]
    · rw [run_succ _ _ h]
      show Ideal.exp (_ - max _ _) * _ + ∑ k, Ideal.exp (_ - max _ _) * _ = _
      rw [hm, hmax, hM', hacc d]
      have h1 := hscale (fun j k => v j k d)
      rw [h1]
      simp only [← EReal.coe_sub, Ideal.exp_coe, ← EReal.coe_mul]
      rw [← coe_sum, ← EReal.coe_add, before_succ h, Finset.sum_insert (not_mem_before h), add_comm]

/-- After all n ≥ 1 blocks: with M the (real) maximum of all the scores, the normaliser is ∑ exp (score - M) and
    the accumulator ∑ exp (score - M) * value, over all blocks and positions. -/
theorem run_all [Nonempty K] (hn : 0 < n) :
    ∃ M : ℝ, Finset.univ.fold max ⊥ (fun j => Finset.univ.fold max ⊥ (fun k => (s j k : EReal))) = M ∧
      (run (fun j k => (s j k : EReal)) (fun j k d => (v j k d : EReal)) n).l
        = ((∑ j, ∑ k, Real.exp (s j k - M) : ℝ) : EReal) ∧
      ∀ d, (run (fun j k => (s j k : EReal)) (fun j k d => (v j k d : EReal)) n).acc d
        = ((∑ j, ∑ k, Real.exp (s j k - M) * v j k d : ℝ) : EReal) := by
  obtain ⟨M, hM, _, hl, hacc⟩ := run_eq s v n le_rfl
  haveI : Nonempty (Fin n) := ⟨⟨0, hn⟩⟩
  refine ⟨M, ?_, ?_, fun d => ?_⟩
  · have := hM (by rw [before_self]; exact Finset.univ_nonempty)
    rwa [runMax, before_self] at this
  · rw [hl, before_self]
  · rw [hacc d, before_self]

end Real

/-! ## The theorem -/

/-- THE ONLINE SOFTMAX. Real scores x i and values w i d over a finite index set ι, numbered blockwise by
    e : (block, position) ↦ index, n ≥ 1 blocks, each nonempty. Running the recursion over the n blocks and dividing
    the accumulator by the normaliser gives, at every output column d, the softmax-weighted sum over all of ι at once:
    the sum over i of exp (x i - M) / (∑ i', exp (x i' - M)) times w i d, M the maximum of all the scores folded
    from -∞ — with the ideal instance's exp and division on both sides. -/
theorem online_eq_softmax [Nonempty K] (hn : 0 < n) (e : Fin n × K ≃ ι) (x : ι → ℝ) (w : ι → D → ℝ) (d : D) :
    Ideal.div ((run (fun j k => (x (e (j, k)) : EReal)) (fun j k d => (w (e (j, k)) d : EReal)) n).acc d)
        ((run (fun j k => (x (e (j, k)) : EReal)) (fun j k d => (w (e (j, k)) d : EReal)) n).l)
      = ∑ i, Ideal.div (Ideal.exp ((x i : EReal) - Finset.univ.fold max ⊥ (fun i' => (x i' : EReal))))
              (∑ i', Ideal.exp ((x i' : EReal) - Finset.univ.fold max ⊥ (fun i'' => (x i'' : EReal)))) * (w i d : EReal) := by
  obtain ⟨M, hM, hl, hacc⟩ := run_all (fun j k => x (e (j, k))) (fun j k d => w (e (j, k)) d) hn
  haveI : Nonempty (Fin n) := ⟨⟨0, hn⟩⟩
  have hg : Finset.univ.fold max ⊥ (fun i' => (x i' : EReal)) = M := by
    rw [fold_max_blocks e]; exact hM
  have hZ : 0 < ∑ j, ∑ k, Real.exp (x (e (j, k)) - M) :=
    Finset.sum_pos (fun j _ => Finset.sum_pos (fun k _ => Real.exp_pos _) Finset.univ_nonempty) Finset.univ_nonempty
  have hZ' : ∑ i, Real.exp (x i - M) = ∑ j, ∑ k, Real.exp (x (e (j, k)) - M) := by
    rw [← Equiv.sum_comp e, Fintype.sum_prod_type]
  rw [hl, hacc d, hg]
  simp only [← EReal.coe_sub, Ideal.exp_coe]
  rw [← coe_sum, hZ']
  simp only [Ideal.div_coe hZ.ne', ← EReal.coe_mul]
  rw [← coe_sum]
  refine congrArg _ ?_
  rw [← Equiv.sum_comp e, Fintype.sum_prod_type, Finset.sum_mul]
  refine Finset.sum_congr rfl fun j _ => ?_
  rw [Finset.sum_mul]
  refine Finset.sum_congr rfl fun k _ => ?_
  ring

end OnlineSoftmax

end
-- ==== Proof.FlashRow.lean ====
/-
  One query row of the flash kernel's sweep is the online softmax recursion.

  Fix the cached query tile, the eight key/value tiles and a row p of the query tile. The row's scores against tile
  j are S j k = (query row p · key row k of tile j) / 64 and its values V j k d = the value tile's entry (k, d). Then
  the scratch after i tiles, read at row p, is the online recursion's state after i blocks, and the output block's
  entry (p, d) is that recursion's accumulator over its normaliser after all eight.
-/
import proofs.«128656_j27453430956590_2_alg».proof.Proof.FlashPayload
import proofs.«128656_j27453430956590_2_alg».proof.Proof.LibOnlineSoftmax

noncomputable section

namespace Cert.KernelIdeal.Flash

open Idealize.ShloMosaic Idealize.ShloMosaic.ValueIdx Cert.KernelIdeal Cert.KernelIdeal.Gen

variable (qs : Vec Ideal S512x1024 .bf16) (p : Fin 512)

/-- One tile at row p is one step of the recursion. -/
theorem step_row (kbj vbj : Vec Ideal S1024x1024 .bf16) (s : St Ideal) (r : OnlineSoftmax.Row (Fin 1024))
    (hm : s.m (ix2 p 0) = r.m) (hl : s.l (ix2 p 0) = r.l) (hacc : ∀ d : Fin 1024, s.acc (ix2 p d) = r.acc d) :
    (step qs kbj vbj s).m (ix2 p 0)
        = (OnlineSoftmax.step (fun k : Fin 1024 => k1_pay8 (F := Ideal) qs kbj (ix2 p k)) (fun k d : Fin 1024 => vbj (ix2 k d)) r).m
      ∧ (step qs kbj vbj s).l (ix2 p 0)
        = (OnlineSoftmax.step (fun k : Fin 1024 => k1_pay8 (F := Ideal) qs kbj (ix2 p k)) (fun k d : Fin 1024 => vbj (ix2 k d)) r).l
      ∧ ∀ d : Fin 1024, (step qs kbj vbj s).acc (ix2 p d)
        = (OnlineSoftmax.step (fun k : Fin 1024 => k1_pay8 (F := Ideal) qs kbj (ix2 p k)) (fun k d : Fin 1024 => vbj (ix2 k d)) r).acc d := by
  have hmax : k1_pay9 (F := Ideal) qs kbj s.m (ix2 p 0)
      = max r.m (Finset.univ.fold max ⊥ (fun k : Fin 1024 => k1_pay8 (F := Ideal) qs kbj (ix2 p k))) := by
    rw [newmax_apply, hm]
  have hw : ∀ k : Fin 1024, k1_pay11 (F := Ideal) qs kbj s.m (ix2 p k)
      = Ideal.exp (k1_pay8 (F := Ideal) qs kbj (ix2 p k)
          - max r.m (Finset.univ.fold max ⊥ (fun k : Fin 1024 => k1_pay8 (F := Ideal) qs kbj (ix2 p k)))) := by
    intro k; rw [weights_apply, hmax]
  have ha : k1_pay10 (F := Ideal) qs kbj s.m (ix2 p 0)
      = Ideal.exp (r.m - max r.m (Finset.univ.fold max ⊥ (fun k : Fin 1024 => k1_pay8 (F := Ideal) qs kbj (ix2 p k)))) := by
    rw [rescale_apply, hmax, hm]
  refine ⟨?_, ?_, fun d => ?_⟩
  · show k1_pay2 (F := Ideal) (k1_pay9 (F := Ideal) qs kbj s.m) (ix2 p 0) = max r.m _
    rw [keep_max, hmax]
  · show k1_pay12 (F := Ideal) qs kbj s.m s.l (ix2 p 0) = _
    rw [newnorm_apply, ha, hl]
    simp only [hw]
    rfl
  · show k1_pay1 (F := Ideal) (k1_pay13 (F := Ideal) qs kbj vbj s.m s.acc) (ix2 p d) = _
    rw [keep_acc, newacc_apply, ha, hacc d]
    simp only [hw]
    rfl

variable (kb vb : Fin 8 → Vec Ideal S1024x1024 .bf16)

/-- The scratch after i tiles, at row p, is the recursion's state after i blocks. -/
theorem sweep_row (i : ℕ) :
    (sweep qs kb vb i).m (ix2 p 0)
        = (OnlineSoftmax.run (fun j (k : Fin 1024) => k1_pay8 (F := Ideal) qs (kb j) (ix2 p k)) (fun j (k d : Fin 1024) => vb j (ix2 k d)) i).m
      ∧ (sweep qs kb vb i).l (ix2 p 0)
        = (OnlineSoftmax.run (fun j (k : Fin 1024) => k1_pay8 (F := Ideal) qs (kb j) (ix2 p k)) (fun j (k d : Fin 1024) => vb j (ix2 k d)) i).l
      ∧ ∀ d : Fin 1024, (sweep qs kb vb i).acc (ix2 p d)
        = (OnlineSoftmax.run (fun j (k : Fin 1024) => k1_pay8 (F := Ideal) qs (kb j) (ix2 p k)) (fun j (k d : Fin 1024) => vb j (ix2 k d)) i).acc d := by
  induction i with
  | zero => exact ⟨reset_max (ix2 p 0), reset_norm (ix2 p 0), fun d => reset_acc (ix2 p d)⟩
  | succ i ih =>
    by_cases h : i < 8
    · have e1 : sweep qs kb vb (i + 1) = step qs (kb ⟨i, h⟩) (vb ⟨i, h⟩) (sweep qs kb vb i) := by
        rw [sweep, dif_pos h]
      rw [e1, OnlineSoftmax.run_succ _ _ h]
      exact step_row qs p (kb ⟨i, h⟩) (vb ⟨i, h⟩) _ _ ih.1 ih.2.1 ih.2.2
    · have e1 : sweep qs kb vb (i + 1) = sweep qs kb vb i := by rw [sweep, dif_neg h]
      have e2 : OnlineSoftmax.run (fun j (k : Fin 1024) => k1_pay8 (F := Ideal) qs (kb j) (ix2 p k))
          (fun j (k d : Fin 1024) => vb j (ix2 k d)) (i + 1)
          = OnlineSoftmax.run (fun j (k : Fin 1024) => k1_pay8 (F := Ideal) qs (kb j) (ix2 p k))
              (fun j (k d : Fin 1024) => vb j (ix2 k d)) i := by
        rw [OnlineSoftmax.run, dif_neg h]
      rw [e1, e2]
      exact ih

/-- The output block's entry (p, d): the recursion's accumulator over its normaliser after the eight tiles. -/
theorem out_row (d : Fin 1024) :
    out qs kb vb (ix2 p d)
      = Ideal.div
          ((OnlineSoftmax.run (fun j (k : Fin 1024) => k1_pay8 (F := Ideal) qs (kb j) (ix2 p k)) (fun j (k d : Fin 1024) => vb j (ix2 k d)) 8).acc d)
          ((OnlineSoftmax.run (fun j (k : Fin 1024) => k1_pay8 (F := Ideal) qs (kb j) (ix2 p k)) (fun j (k d : Fin 1024) => vb j (ix2 k d)) 8).l) := by
  unfold out
  rw [quotient_apply, (sweep_row qs p kb vb 8).2.1, (sweep_row qs p kb vb 8).2.2 d]

end Cert.KernelIdeal.Flash

end
-- ==== Proof.RefSoftmax.lean ====
/-
  The reference read one element at a time: scaled dot-product attention as a softmax-weighted sum.

  The reference projects Q = q·wQ, K = k·wK, V = v·wV, forms the scores Q·Kᵀ / 64, takes the softmax of every row of
  scores (subtract the row's maximum, exponentiate, divide by the row's sum) and multiplies by V. At the element
  (row, d) of the result that is: with  score t  the scaled product of Q's row and K's row t, and M the maximum of the
  scores folded from -∞, the sum over the 8192 keys t of  exp (score t - M) / (0 + ∑ exp (score t' - M))  times V's
  entry (t, d). Every stage is read at an index by the generated lemma for it; the row maximum, a reduction with a
  maximum body, by the library's fold form of the host's reduce.
-/
import proofs.«128656_j27453430956590_2_alg».proof.Proof.Gen.ReferenceIdeal.Read
import proofs.«128656_j27453430956590_2_alg».proof.Proof.FlashConsts
import Idealize.ShloMosaic.Lib.ValueIdx
import Idealize.ShloMosaic.PureOps.Ideal.Laws
import Idealize.ShloMosaic.PureOps.Reduce

noncomputable section

namespace Cert.ReferenceIdeal.Softmax

open Idealize.ShloMosaic Idealize.ShloMosaic.ValueIdx Cert.ReferenceIdeal Cert.ReferenceIdeal.Read

/-! ## The stages' index maps, on indices written by coordinates -/

theorem lidx0 (row : Fin 8192) (c c' : Fin 1024) : lidx_main_v0 (ix2 row c) c' = ix2 row c' :=
  funext fun a => Fin.ext (by match a with | ⟨0, _⟩ => rfl | ⟨1, _⟩ => rfl)
theorem ridx0 (row : Fin 8192) (c c' : Fin 1024) : ridx_main_v0 (ix2 row c) c' = ix2 c' c :=
  funext fun a => Fin.ext (by match a with | ⟨0, _⟩ => rfl | ⟨1, _⟩ => rfl)
theorem lidx1 (row : Fin 8192) (c c' : Fin 1024) : lidx_main_v1 (ix2 row c) c' = ix2 row c' :=
  funext fun a => Fin.ext (by match a with | ⟨0, _⟩ => rfl | ⟨1, _⟩ => rfl)
theorem ridx1 (row : Fin 8192) (c c' : Fin 1024) : ridx_main_v1 (ix2 row c) c' = ix2 c' c :=
  funext fun a => Fin.ext (by match a with | ⟨0, _⟩ => rfl | ⟨1, _⟩ => rfl)
theorem lidx2 (row : Fin 8192) (c c' : Fin 1024) : lidx_main_v2 (ix2 row c) c' = ix2 row c' :=
  funext fun a => Fin.ext (by match a with | ⟨0, _⟩ => rfl | ⟨1, _⟩ => rfl)
theorem ridx2 (row : Fin 8192) (c c' : Fin 1024) : ridx_main_v2 (ix2 row c) c' = ix2 c' c :=
  funext fun a => Fin.ext (by match a with | ⟨0, _⟩ => rfl | ⟨1, _⟩ => rfl)
theorem lidx3 (row t : Fin 8192) (c : Fin 1024) : lidx_main_v3 (ix2 row t) c = ix2 row c :=
  funext fun a => Fin.ext (by match a with | ⟨0, _⟩ => rfl | ⟨1, _⟩ => rfl)
theorem ridx3 (row t : Fin 8192) (c : Fin 1024) : ridx_main_v3 (ix2 row t) c = ix2 t c :=
  funext fun a => Fin.ext (by match a with | ⟨0, _⟩ => rfl | ⟨1, _⟩ => rfl)
theorem idx9_10 (row t : Fin 8192) : idx_main_v9 (idx_main_v10 (ix2 row t)) = ix1 row :=
  funext fun a => Fin.ext (by match a with | ⟨0, _⟩ => rfl)
theorem idx13_15 (row t t' : Fin 8192) : idx_main_v13 (idx_main_v14 (idx_main_v15 (ix2 row t))) t' = ix2 row t' :=
  funext fun a => Fin.ext (by match a with | ⟨0, _⟩ => rfl | ⟨1, _⟩ => rfl)
theorem lidx17 (row t : Fin 8192) (d : Fin 1024) : lidx_main_v17 (ix2 row d) t = ix2 row t :=
  funext fun a => Fin.ext (by match a with | ⟨0, _⟩ => rfl | ⟨1, _⟩ => rfl)
theorem ridx17 (row t : Fin 8192) (d : Fin 1024) : ridx_main_v17 (ix2 row d) t = ix2 t d :=
  funext fun a => Fin.ext (by match a with | ⟨0, _⟩ => rfl | ⟨1, _⟩ => rfl)

/-! ## A row's maximum on the host -/

/-- The index over row `row` with `t` put back on the reduced axis is `(row, t)`. -/
theorem lift_row (h : (⟨2, ![8192, 8192]⟩ : Shape).Reduces [1] ⟨1, ![8192]⟩) (row t : Fin 8192) :
    h.lift (ix1 row) t = ix2 row t :=
  funext fun a => Fin.ext (by match a with | ⟨0, _⟩ => rfl | ⟨1, _⟩ => rfl)

/-- The host's reduce with a maximum body along a row of an 8192 × 8192 array: the fold of `max` from the initial
    value over the row's entries. -/
theorem hostRowMax (x : FVec Ideal ⟨2, ![8192, 8192]⟩ .f32) (init : FVec Ideal ⟨0, ![]⟩ .f32)
    (h' : (⟨2, ![8192, 8192]⟩ : Shape).ReducesTo [1] ⟨1, ![8192]⟩) (h : (⟨2, ![8192, 8192]⟩ : Shape).Reduces [1] ⟨1, ![8192]⟩)
    (hu : 0 < (⟨0, ![]⟩ : Shape).numel) (row : Fin 8192) :
    Host.reduce FloatOps.maximumf x init h' hu (ix1 row)
      = Finset.univ.fold max (init (Shape.Idx.first hu)) (fun t : Fin 8192 => x (ix2 row t)) := by
  rw [Host.reduce_eq_fold_single FloatOps.maximumf x _ h' h hu]
  have hf : (x ∘ h.lift (ix1 row)) = fun t : Fin 8192 => x (ix2 row t) := funext fun t => congrArg x (lift_row h row t)
  exact congrArg (fun f => Finset.fold max (init (Shape.Idx.first hu)) f (Finset.univ : Finset (Fin 8192))) hf

/-! ## The stages at an index -/

variable (q k v : (⟨S8192x1024, .f32⟩ : BufTy).Contents (Elt Ideal)) (wQ wK wV : (⟨S1024x1024, .f32⟩ : BufTy).Contents (Elt Ideal))

/-- The three projections: a row of the input against a column of the weights. -/
theorem qproj_ref (row : Fin 8192) (c : Fin 1024) :
    val_main_v0 (F := Ideal) q wQ (ix2 row c) = ∑ c' : Fin 1024, q (ix2 row c') * wQ (ix2 c' c) := by
  rw [val_main_v0_apply]
  exact Finset.sum_congr rfl fun c' _ => by rw [lidx0, ridx0]
theorem kproj_ref (row : Fin 8192) (c : Fin 1024) :
    val_main_v1 (F := Ideal) k wK (ix2 row c) = ∑ c' : Fin 1024, k (ix2 row c') * wK (ix2 c' c) := by
  rw [val_main_v1_apply]
  exact Finset.sum_congr rfl fun c' _ => by rw [lidx1, ridx1]
theorem vproj_ref (row : Fin 8192) (c : Fin 1024) :
    val_main_v2 (F := Ideal) v wV (ix2 row c) = ∑ c' : Fin 1024, v (ix2 row c') * wV (ix2 c' c) := by
  rw [val_main_v2_apply]
  exact Finset.sum_congr rfl fun c' _ => by rw [lidx2, ridx2]

/-- The scaled score of query row `row` against key row `t`: the product of the projected rows over 64. -/
def score (row t : Fin 8192) : EReal :=
  Ideal.div (∑ c : Fin 1024, (∑ c' : Fin 1024, q (ix2 row c') * wQ (ix2 c' c)) * (∑ c' : Fin 1024, k (ix2 t c') * wK (ix2 c' c)))
    (Ideal.ofBits .f32 0x42800000#32)

theorem score_ref (row t : Fin 8192) : val_main_v5 (F := Ideal) q k wQ wK (ix2 row t) = score q k wQ wK row t := by
  rw [val_main_v5_apply, val_main_v3_apply, val_main_v4_apply, val_main_cst_apply]
  show Ideal.div _ (Ideal.ofBits .f32 0x42800000#32) = _
  unfold score
  refine congrArg (fun z => Ideal.div z (Ideal.ofBits .f32 0x42800000#32)) ?_
  exact Finset.sum_congr rfl fun c _ => by rw [lidx3, ridx3, qproj_ref, kproj_ref]

/-- The row's maximum, as the reference takes it: `max` of -∞ and the fold of `max` from -∞ over the row's scores. -/
theorem rowmax_ref (row t : Fin 8192) :
    val_main_v10 (F := Ideal) q k wQ wK (ix2 row t)
      = max ⊥ (Finset.univ.fold max ⊥ (fun t' : Fin 8192 => score q k wQ wK row t')) := by
  rw [val_main_v10_apply, val_main_v9_apply, val_main_v8_apply, val_main_v7_apply, val_main_cst_1_apply, idx9_10]
  have h6 : val_main_v6 (F := Ideal) q k wQ wK (ix1 row)
      = Finset.univ.fold max ⊥ (fun t' : Fin 8192 => score q k wQ wK row t') := by
    have hs : (fun t' : Fin 8192 => val_main_v5 (F := Ideal) q k wQ wK (ix2 row t')) = fun t' => score q k wQ wK row t' :=
      funext fun t' => score_ref q k wQ wK row t'
    rw [← hs]
    unfold val_main_v6
    generalize val_main_v5 (F := Ideal) q k wQ wK = y
    refine (hostRowMax y _ _ (by decide) _ row).trans ?_
    rw [val_main_cst_0_apply]
    show Finset.univ.fold max (Ideal.ofBits .f32 0xFF800000#32) _ = _
    rw [FlashConsts.ofBits_neg_inf]
  rw [h6]
  show max (Ideal.ofBits .f32 0xFF800000#32) _ = _
  rw [FlashConsts.ofBits_neg_inf]

/-- The exponentials: exp (score - the row's maximum). -/
theorem expo_ref (row t : Fin 8192) :
    val_main_v12 (F := Ideal) q k wQ wK (ix2 row t)
      = Ideal.exp (score q k wQ wK row t - max ⊥ (Finset.univ.fold max ⊥ (fun t' : Fin 8192 => score q k wQ wK row t'))) := by
  rw [val_main_v12_apply, val_main_v11_apply, score_ref, rowmax_ref]
  rfl

/-- The row's normaliser: 0 plus the sum of the row's exponentials. -/
theorem norm_ref (row t : Fin 8192) :
    val_main_v15 (F := Ideal) q k wQ wK (ix2 row t)
      = 0 + ∑ t' : Fin 8192, Ideal.exp (score q k wQ wK row t'
          - max ⊥ (Finset.univ.fold max ⊥ (fun t'' : Fin 8192 => score q k wQ wK row t''))) := by
  rw [val_main_v15_apply, val_main_v14_apply, val_main_v13_apply, val_main_cst_2_apply]
  show Ideal.ofBits .f32 0x00000000#32 + _ = _
  rw [Ideal.ofBits_zero_f32]
  refine congrArg (0 + ·) (Finset.sum_congr rfl fun t' _ => ?_)
  rw [idx13_15, expo_ref]

/-- THE REFERENCE AT (row, d): the softmax-weighted sum of the projected values' column d over the 8192 keys. -/
theorem reference_apply (row : Fin 8192) (d : Fin 1024) :
    val_main_v17 (F := Ideal) q k v wQ wK wV (ix2 row d)
      = ∑ t : Fin 8192,
          Ideal.div (Ideal.exp (score q k wQ wK row t - max ⊥ (Finset.univ.fold max ⊥ (fun t' : Fin 8192 => score q k wQ wK row t'))))
              (0 + ∑ t' : Fin 8192, Ideal.exp (score q k wQ wK row t'
                - max ⊥ (Finset.univ.fold max ⊥ (fun t'' : Fin 8192 => score q k wQ wK row t''))))
            * (∑ c' : Fin 1024, v (ix2 t c') * wV (ix2 c' d)) := by
  rw [val_main_v17_apply]
  refine Finset.sum_congr rfl fun t _ => ?_
  rw [lidx17, ridx17, vproj_ref, val_main_v16_apply, expo_ref, norm_ref]
  rfl

end Cert.ReferenceIdeal.Softmax

end
-- ==== Proof.FlashValue.lean ====
/-
  The flash kernel's output block equals the reference's rows, entry by entry.

  Fix a query tile qi (512 rows) and an entry (p, d) of its output block; the corresponding row of the whole
  problem is row = 512·qi + p. The kernel's sweep at row p is the online softmax recursion over the eight key/value
  tiles (FlashRow), whose scores S j k = (projected query row · projected key row 1024·j + k) · (1/64) and values
  V j k d = projected value entry (1024·j + k, d) are REAL numbers when the inputs are: sums of products of reals,
  times the real 1/64. The reference at (row, d) is the softmax-weighted sum over all 8192 keys of the same real scores
  (a division by 64 is the multiplication by 1/64) and values (RefSoftmax). The online softmax theorem, with the
  numbering (tile, position) ↦ 1024·tile + position of the keys, joins the two.
-/
import proofs.«128656_j27453430956590_2_alg».proof.Proof.FlashRow
import proofs.«128656_j27453430956590_2_alg».proof.Proof.RefSoftmax

noncomputable section

namespace Cert.KernelIdeal.Flash

open Idealize.ShloMosaic Idealize.ShloMosaic.ValueIdx Cert.KernelIdeal Cert.KernelIdeal.Gen

/-! ## Blocks of the whole arrays, and the numbering of the keys -/

/-- Query tile `qi` of an 8192-row array: rows 512·qi … 512·qi + 511. -/
def queryTile {φ : FTy} (X : FVec Ideal S8192x1024 φ) (qi : Fin 16) : FVec Ideal S512x1024 φ :=
  fun y => X (ix2 ⟨512 * qi.val + (y 0).val, by have := idx2_lt0 y; have := qi.isLt; omega⟩ ⟨(y 1).val, idx2_lt1 y⟩)

/-- Key/value tile `j` of an 8192-row array: rows 1024·j … 1024·j + 1023. -/
def keyTile {φ : FTy} (X : FVec Ideal S8192x1024 φ) (j : Fin 8) : FVec Ideal S1024x1024 φ :=
  fun y => X (ix2 ⟨1024 * j.val + (y 0).val, by have := idx2_lt0 y; have := j.isLt; omega⟩ ⟨(y 1).val, idx2_lt1 y⟩)

/-- Key row 1024·j + k' is position k' of tile j: the numbering of the 8192 keys by (tile, position). -/
def keyIndex : Fin 8 × Fin 1024 ≃ Fin 8192 where
  toFun x := ⟨1024 * x.1.val + x.2.val, by have := x.1.isLt; have := x.2.isLt; omega⟩
  invFun t := (⟨t.val / 1024, by have := t.isLt; omega⟩, ⟨t.val % 1024, Nat.mod_lt _ (by norm_num)⟩)
  left_inv x := by
    obtain ⟨j, k'⟩ := x
    refine Prod.ext (Fin.ext ?_) (Fin.ext ?_)
    · show (1024 * j.val + k'.val) / 1024 = j.val
      have := k'.isLt; omega
    · show (1024 * j.val + k'.val) % 1024 = k'.val
      have := k'.isLt; omega
  right_inv t := Fin.ext (by show 1024 * (t.val / 1024) + t.val % 1024 = t.val; omega)

/-! ## The real scores and values -/

/-- The real score of query row `row` against key row `t`: projected rows multiplied, times 1/64. -/
def realScore (qr kr : S8192x1024.Idx → ℝ) (wQr wKr : S1024x1024.Idx → ℝ) (row t : Fin 8192) : ℝ :=
  (∑ c : Fin 1024, (∑ c' : Fin 1024, qr (ix2 row c') * wQr (ix2 c' c)) * (∑ c' : Fin 1024, kr (ix2 t c') * wKr (ix2 c' c)))
    * (1 / 64)

/-- The real projected value of key row `t` at column `d`. -/
def realValue (vr : S8192x1024.Idx → ℝ) (wVr : S1024x1024.Idx → ℝ) (t : Fin 8192) (d : Fin 1024) : ℝ :=
  ∑ c' : Fin 1024, vr (ix2 t c') * wVr (ix2 c' d)

/-- THE KERNEL'S OUTPUT BLOCK IS THE REFERENCE'S ROWS. For real inputs, projected keys and values `KP`, `VP` as
    region 0 leaves them, query tile `qi` and entry (p, d): the flash sweep's output equals the reference's
    attention output at (512·qi + p, d). -/
theorem flash_tile_eq_reference
    (q k v : FVec Ideal S8192x1024 .f32) (wQ wK wV : FVec Ideal S1024x1024 .f32)
    (hq : ∀ i, ∃ r : ℝ, q i = (r : EReal)) (hk : ∀ i, ∃ r : ℝ, k i = (r : EReal)) (hv : ∀ i, ∃ r : ℝ, v i = (r : EReal))
    (hwQ : ∀ i, ∃ r : ℝ, wQ i = (r : EReal)) (hwK : ∀ i, ∃ r : ℝ, wK i = (r : EReal)) (hwV : ∀ i, ∃ r : ℝ, wV i = (r : EReal))
    (KP VP : FVec Ideal S8192x1024 .bf16)
    (hKP : ∀ (s : Fin 8192) (d : Fin 1024), KP (ix2 s d) = ∑ c : Fin 1024, k (ix2 s c) * wK (ix2 c d))
    (hVP : ∀ (s : Fin 8192) (d : Fin 1024), VP (ix2 s d) = ∑ c : Fin 1024, v (ix2 s c) * wV (ix2 c d))
    (qi : Fin 16) (p : Fin 512) (d : Fin 1024) :
    out (F := Ideal) (qproj (F := Ideal) (queryTile q qi) wQ) (keyTile KP) (keyTile VP) (ix2 p d)
      = Cert.ReferenceIdeal.Read.val_main_v17 (F := Ideal) q k v wQ wK wV
          (ix2 ⟨512 * qi.val + p.val, by have := qi.isLt; have := p.isLt; omega⟩ d) := by
  obtain ⟨qr, rfl⟩ : ∃ qr : S8192x1024.Idx → ℝ, q = fun i => (qr i : EReal) :=
    ⟨fun i => (hq i).choose, funext fun i => (hq i).choose_spec⟩
  obtain ⟨kr, rfl⟩ : ∃ kr : S8192x1024.Idx → ℝ, k = fun i => (kr i : EReal) :=
    ⟨fun i => (hk i).choose, funext fun i => (hk i).choose_spec⟩
  obtain ⟨vr, rfl⟩ : ∃ vr : S8192x1024.Idx → ℝ, v = fun i => (vr i : EReal) :=
    ⟨fun i => (hv i).choose, funext fun i => (hv i).choose_spec⟩
  obtain ⟨wQr, rfl⟩ : ∃ wQr : S1024x1024.Idx → ℝ, wQ = fun i => (wQr i : EReal) :=
    ⟨fun i => (hwQ i).choose, funext fun i => (hwQ i).choose_spec⟩
  obtain ⟨wKr, rfl⟩ : ∃ wKr : S1024x1024.Idx → ℝ, wK = fun i => (wKr i : EReal) :=
    ⟨fun i => (hwK i).choose, funext fun i => (hwK i).choose_spec⟩
  obtain ⟨wVr, rfl⟩ : ∃ wVr : S1024x1024.Idx → ℝ, wV = fun i => (wVr i : EReal) :=
    ⟨fun i => (hwV i).choose, funext fun i => (hwV i).choose_spec⟩
  generalize hrow : (⟨512 * qi.val + p.val, by have := qi.isLt; have := p.isLt; omega⟩ : Fin 8192) = row
  -- the cached query row: real
  have hqs : ∀ c : Fin 1024, qproj (F := Ideal) (queryTile (φ := .f32) (fun i => (qr i : EReal)) qi) (fun i => (wQr i : EReal)) (ix2 p c)
      = ((∑ c' : Fin 1024, qr (ix2 row c') * wQr (ix2 c' c) : ℝ) : EReal) := by
    intro c
    rw [qproj_apply, OnlineSoftmax.coe_sum]
    refine Finset.sum_congr rfl fun c' _ => ?_
    rw [EReal.coe_mul, ← hrow]
    rfl
  -- the key tiles: real
  have hkb : ∀ (j : Fin 8) (k' c : Fin 1024), keyTile KP j (ix2 k' c)
      = ((∑ c' : Fin 1024, kr (ix2 (keyIndex (j, k')) c') * wKr (ix2 c' c) : ℝ) : EReal) := by
    intro j k' c
    refine (hKP (keyIndex (j, k')) c).trans ?_
    rw [OnlineSoftmax.coe_sum]
    exact Finset.sum_congr rfl fun c' _ => (EReal.coe_mul _ _).symm
  -- the value tiles: real
  have hvb : ∀ (j : Fin 8) (k' d' : Fin 1024), keyTile VP j (ix2 k' d')
      = ((realValue vr wVr (keyIndex (j, k')) d' : ℝ) : EReal) := by
    intro j k' d'
    refine (hVP (keyIndex (j, k')) d').trans ?_
    unfold realValue
    rw [OnlineSoftmax.coe_sum]
    exact Finset.sum_congr rfl fun c' _ => (EReal.coe_mul _ _).symm
  -- the tile scores: real
  have hS : (fun (j : Fin 8) (k' : Fin 1024) =>
        k1_pay8 (F := Ideal) (qproj (F := Ideal) (queryTile (φ := .f32) (fun i => (qr i : EReal)) qi) (fun i => (wQr i : EReal))) (keyTile KP j) (ix2 p k'))
      = fun j k' => ((realScore qr kr wQr wKr row (keyIndex (j, k')) : ℝ) : EReal) := by
    funext j k'
    rw [scores_apply, FlashConsts.ofBits_inv64]
    unfold realScore
    rw [EReal.coe_mul, OnlineSoftmax.coe_sum]
    refine congrArg (· * ((1 / 64 : ℝ) : EReal)) (Finset.sum_congr rfl fun c _ => ?_)
    rw [hqs, hkb, EReal.coe_mul]
  have hV : (fun (j : Fin 8) (k' d' : Fin 1024) => keyTile VP j (ix2 k' d'))
      = fun j k' d' => ((realValue vr wVr (keyIndex (j, k')) d' : ℝ) : EReal) := by
    funext j k' d'
    exact hvb j k' d'
  -- the reference's scores: the same reals
  have hscore : ∀ t : Fin 8192,
      Cert.ReferenceIdeal.Softmax.score (fun i => (qr i : EReal)) (fun i => (kr i : EReal)) (fun i => (wQr i : EReal)) (fun i => (wKr i : EReal)) row t
        = ((realScore qr kr wQr wKr row t : ℝ) : EReal) := by
    intro t
    unfold Cert.ReferenceIdeal.Softmax.score realScore
    rw [FlashConsts.ofBits_64, Ideal.div_coe (by norm_num : (64 : ℝ) ≠ 0), EReal.coe_mul, OnlineSoftmax.coe_sum]
    refine congrArg (· * ((1 / 64 : ℝ) : EReal)) (Finset.sum_congr rfl fun c _ => ?_)
    rw [EReal.coe_mul, OnlineSoftmax.coe_sum, OnlineSoftmax.coe_sum]
    exact congr (congrArg HMul.hMul (Finset.sum_congr rfl fun c' _ => (EReal.coe_mul _ _).symm))
      (Finset.sum_congr rfl fun c' _ => (EReal.coe_mul _ _).symm)
  have hval : ∀ t : Fin 8192, (∑ c' : Fin 1024, (vr (ix2 t c') : EReal) * (wVr (ix2 c' d) : EReal))
      = ((realValue vr wVr t d : ℝ) : EReal) := by
    intro t
    unfold realValue
    rw [OnlineSoftmax.coe_sum]
    exact Finset.sum_congr rfl fun c' _ => (EReal.coe_mul _ _).symm
  rw [out_row, hS, hV, Cert.ReferenceIdeal.Softmax.reference_apply]
  simp only [hscore, hval, max_bot_left, zero_add]
  exact OnlineSoftmax.online_eq_softmax (by norm_num) keyIndex (realScore qr kr wQr wKr row) (realValue vr wVr) d

end Cert.KernelIdeal.Flash

end
-- ==== Proof.FiniteInputs.lean ====
/-
  From the finiteness precondition to "every input entry is a real number".

  The precondition says, of each of the six input arrays, that every entry's absolute value is below +∞ (an
  all-reduction by `and` of the entrywise comparisons, and the conjunction of the six). At the ideal instance an
  entry is an extended real x, its absolute value is max x (-x), and max x (-x) < ⊤ excludes both infinities: x is a
  real number.
-/
import proofs.«128656_j27453430956590_2_alg».proof.Defs
import proofs.«128656_j27453430956590_2_alg».proof.Proof.Gen.Pre_finite_inputs
import proofs.«128656_j27453430956590_2_alg».proof.Proof.FlashConsts
import Idealize.ShloMosaic.Lib.ReduceAll
import Idealize.ShloMosaic.Lib.ValueIdx
import Idealize.ShloMosaic.Lib.Pipeline.Value

noncomputable section

namespace Cert.FiniteInputs

open Idealize.ShloMosaic Idealize.SL.Sem Idealize.ShloMosaic.ValueIdx

instance : Subsingleton Cert.Pre_finite_inputs.S_.Idx := ⟨fun a b => funext fun d => d.elim0⟩

/-- An extended real whose absolute value compares below +∞ is a real number. -/
theorem real_of_abs_lt_inf (x : EReal)
    (h : Ideal.cmp .olt (max x (-x)) (Ideal.ofBits .f32 0x7F800000#32) = 1#1) : ∃ r : ℝ, x = r := by
  rw [FlashConsts.ofBits_pos_inf] at h
  have hlt : max x (-x) < ⊤ := by
    by_contra hn
    simp [Ideal.cmp, hn] at h
  induction x using EReal.rec with
  | bot => simp at hlt
  | top => simp at hlt
  | coe r => exact ⟨r, rfl⟩

/-- Every entry of an array of ideal floats is a real number. -/
def AllReal {s : Shape} (x : FVec Ideal s .f32) : Prop := ∀ i, ∃ r : ℝ, x i = (r : EReal)

/-- One input array: if the all-reduction of "|entry| < +∞" is 1, every entry is a real number. -/
theorem real_of_all {s : Shape} {axes : List (Fin s.rank)} (x : FVec Ideal s .f32)
    (bc : Cert.Pre_finite_inputs.S_.BroadcastsInDim s (![] : Fin 0 → Fin s.rank))
    (h' : s.ReducesTo axes Cert.Pre_finite_inputs.S_) (hu : 0 < Cert.Pre_finite_inputs.S_.numel)
    (e : Host.reduce IntOp.andi
        (cmpf .olt (Host.absf x) (broadcastInDim s ![] bc (constant (F := Ideal) Cert.Pre_finite_inputs.S_ .f32 0x7F800000#32)))
        (constantI Cert.Pre_finite_inputs.S_ 1 1#1) h' hu ix0 = 1#1) :
    AllReal x := by
  intro i
  have h1 := Host.reduce_andi_all _ _ h' hu ix0 e i
  have hb : broadcastInDim s ![] bc (constant (F := Ideal) Cert.Pre_finite_inputs.S_ .f32 0x7F800000#32) i
      = Ideal.ofBits .f32 0x7F800000#32 :=
    broadcastInDim_apply _ bc _ i ix0 (fun a => a.elim0)
  refine real_of_abs_lt_inf (x i) ?_
  rw [← hb]
  exact h1

/-- THE PRECONDITION READ BACK: under the finiteness precondition every entry of each of the six input arrays, on
    every device, is a real number. -/
theorem inputs_real
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (s := Cert.Pre_finite_inputs.S8192x1024) (m ((c.tc : Thread Cert.KernelIdeal.nD Cert.KernelIdeal.τ).loc Cert.KernelIdeal.main_arg0))
    ∧ AllReal (s := Cert.Pre_finite_inputs.S8192x1024) (m ((c.tc : Thread Cert.KernelIdeal.nD Cert.KernelIdeal.τ).loc Cert.KernelIdeal.main_arg1))
    ∧ AllReal (s := Cert.Pre_finite_inputs.S8192x1024) (m ((c.tc : Thread Cert.KernelIdeal.nD Cert.KernelIdeal.τ).loc Cert.KernelIdeal.main_arg2))
    ∧ AllReal (s := Cert.Pre_finite_inputs.S1024x1024) (m ((c.tc : Thread Cert.KernelIdeal.nD Cert.KernelIdeal.τ).loc Cert.KernelIdeal.main_arg3))
    ∧ AllReal (s := Cert.Pre_finite_inputs.S1024x1024) (m ((c.tc : Thread Cert.KernelIdeal.nD Cert.KernelIdeal.τ).loc Cert.KernelIdeal.main_arg4))
    ∧ AllReal (s := Cert.Pre_finite_inputs.S1024x1024) (m ((c.tc : Thread Cert.KernelIdeal.nD Cert.KernelIdeal.τ).loc Cert.KernelIdeal.main_arg5)) := by
  have h := congrFun (hpre c) ix0
  dsimp only [Cert.Pre_finite_inputs.fn, Cert.Pre_finite_inputs.fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ h0, real_of_all _ _ _ _ h1, real_of_all _ _ _ _ h2, real_of_all _ _ _ _ h3,
    real_of_all _ _ _ _ h4, real_of_all _ _ _ _ h5⟩

end Cert.FiniteInputs

end
-- ==== Proof.KernelFinal.lean ====
/-
  The kernel's result array is the reference's, at the ideal instance and for finite inputs.

  Region 1 enters with the query array and the query weights as launched and the two projected arrays as region 0 left them
  (the products of the key and value inputs with their weights). Row `512 qi + p` of the result is written by the last
  position of query tile `qi`, as the flash sweep's output at row `p`; for real inputs that is the reference's attention
  output at that row, and the sixteen output blocks tile the array.
-/
import proofs.«128656_j27453430956590_2_alg».proof.Proof.KernelTiles
import proofs.«128656_j27453430956590_2_alg».proof.Proof.KernelProj
import proofs.«128656_j27453430956590_2_alg».proof.Proof.FlashValue
import proofs.«128656_j27453430956590_2_alg».proof.Proof.FiniteInputs
import proofs.«128656_j27453430956590_2_alg».proof.Proof.Gen.ReferenceIdeal.Read
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Flash

variable (m : (ℓ : Loc nD τ sig) → Buf (Elt Ideal) ℓ) (ρ : Dev nD → PrngReg)

/-- Region 1 finds the query array and the query weights as launched: region 0 does not touch them, -/
theorem V2_main_arg0 (c : Dev nD) : V2 m ρ c main_arg0 = m ((c.tc : Thread nD τ).loc main_arg0) := W2_of_ne m ρ c main_arg0 (by decide)
theorem V2_main_arg3 (c : Dev nD) : V2 m ρ c main_arg3 = m ((c.tc : Thread nD τ).loc main_arg3) := W2_of_ne m ρ c main_arg3 (by decide)
/-- and the projected keys and values as the products region 0 computed. -/
theorem V2_keys (c : Dev nD) : V2 m ρ c main_v0_0 = projArr (m ((c.tc : Thread nD τ).loc main_arg1)) (m ((c.tc : Thread nD τ).loc main_arg4)) :=
  (W2_arr m ρ c 4).trans (final0_4 (V0 m ρ) c)
theorem V2_values (c : Dev nD) : V2 m ρ c main_v0_1 = projArr (m ((c.tc : Thread nD τ).loc main_arg2)) (m ((c.tc : Thread nD τ).loc main_arg5)) :=
  (W2_arr m ρ c 5).trans (final0_5 (V0 m ρ) c)

/-- Row `p` of the output block of position `t` is row `512 (t / 8) + p` of the result array. -/
theorem emb1_4 (t : Fin cfg1.N) (p : Fin 512) (d : Fin 1024) :
    ((cfg1.win 4).blk t).view.emb (ix2 p d) = ix2 ⟨512 * (t.val / 8) + p.val, by have := qi_lt t; have := p.isLt; omega⟩ d := by
  obtain ⟨-, -, -, -, -, -, -, -, e8, e9⟩ := idx1 t
  funext a; apply Fin.ext
  match a with
  | ⟨0, _⟩ => show win1_4.index t (0 : Fin 2) * 512 + 1 * p.val = 512 * (t.val / 8) + p.val; rw [e8]; omega
  | ⟨1, _⟩ => show win1_4.index t (1 : Fin 2) * 1024 + 1 * d.val = d.val; rw [e9]; omega

/-- The result array after the run, under the finiteness precondition: the reference's attention output of the launch
    arrays. -/
theorem result_eq (hpre : Cert.Pre_KernelIdeal m) (c : Dev nD) :
    (dat1 (V2 m ρ) c).arrAt 4 cfg1.N
      = Cert.ReferenceIdeal.Read.val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨h0, h1, h2, h3, h4, h5⟩ := Cert.FiniteInputs.inputs_real m hpre c
  refine (dat1 (V2 m ρ) c).arrAt_eq_of_cover 4 _ (fun t hf => ?_) cover1_4
  refine (flushed1_4 (V2 m ρ) c t hf).trans ?_
  funext y
  obtain ⟨p, d, rfl⟩ : ∃ (p : Fin 512) (d : Fin 1024), y = ix2 p d := ⟨y 0, y 1, eq_ix2 y⟩
  show Flash.out (QS (V2 m ρ) c ⟨t.val / 8, qi_lt t⟩) (kvTile (V2 m ρ c main_v0_0)) (kvTile (V2 m ρ c main_v0_1)) (ix2 p d)
    = Cert.ReferenceIdeal.Read.val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (((cfg1.win 4).blk t).view.emb (ix2 p d))
  rw [emb1_4]
  unfold QS
  rw [V2_main_arg0, V2_main_arg3, V2_keys, V2_values]
  exact flash_tile_eq_reference _ _ _ _ _ _ h0 h1 h2 h3 h4 h5 _ _
    (fun s d => projArr_apply _ _ s d) (fun s d => projArr_apply _ _ s d) ⟨t.val / 8, qi_lt t⟩ p d

end Cert.KernelIdeal.Fr

end
-- ==== Proof.lean ====
/-
  Flash attention against plain softmax attention.

  The kernel projects the keys and values (region 0), then for each tile of 512 query rows projects the queries, sweeps
  the eight tiles of 1024 keys with an online softmax — a running row maximum, a running normaliser and an unnormalised
  accumulator, rescaled by exp (old maximum − new maximum) at every tile — and divides at the end (region 1). The
  reference forms all scores, subtracts each row's maximum, exponentiates, normalises and multiplies by the projected
  values. On the extended reals, for finite inputs, the two agree: exp turns the rescalings into one common shift by the
  final maximum, the normaliser is at least 1, so the final division distributes over the sum, and the kernel's scale
  2⁻⁶ is the reference's division by 64.

  The three frames: each kernel program runs both regions to the end with every argument array as launched (the same
  proof at the word-level and at the ideal instance); the reference is a straight line of host operations. The ideal pass
  rewrote nothing, so there is nothing to preserve.
-/
import proofs.«128656_j27453430956590_2_alg».proof.Defs
import proofs.«128656_j27453430956590_2_alg».proof.Proof.Gen.Kernel
import proofs.«128656_j27453430956590_2_alg».proof.Proof.Gen.KernelIdeal
import proofs.«128656_j27453430956590_2_alg».proof.Proof.Gen.ReferenceIdeal
import proofs.«128656_j27453430956590_2_alg».proof.Proof.Gen.ReferenceIdeal.Run
import proofs.«128656_j27453430956590_2_alg».proof.Proof.Gen.ReferenceIdeal.Read
import proofs.«128656_j27453430956590_2_alg».proof.Proof.Gen.Pre_finite_inputs
import proofs.«128656_j27453430956590_2_alg».proof.Proof.Bits.FrameRun
import proofs.«128656_j27453430956590_2_alg».proof.Proof.KernelFinal
import Idealize.ShloMosaic.Adequacy
import Idealize.ShloMosaic.Init

noncomputable section

namespace Cert.Proof

open Idealize.ShloMosaic Idealize.ShloMosaic.TcCoe Idealize.SL.Sem

/-- The word-level kernel runs both regions to the end with its arguments as launched. -/
theorem frame_k : Cert.frame_Kernel := fun m ρ _ => Cert.Kernel.Fr.frame (F := Bits) m ρ
/-- So does the idealized kernel. -/
theorem frame_ki : Cert.frame_KernelIdeal := fun m ρ _ => Cert.KernelIdeal.Fr.frame (F := Ideal) m ρ
/-- The reference's host operations run to the end; its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories that agree on the six arguments and under the finiteness precondition, both
    programs end with the attention output of those arguments in their result arrays. -/
theorem algebraic : Cert.algebraic_KernelIdeal_ReferenceIdeal := by
  intro m ρ m' ρ' hpre hagree
  refine ⟨fun c => Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fr.result_eq m ρ hpre c), (h c).2⟩)
      (Cert.KernelIdeal.Fr.run_result (F := Ideal) m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v17_eq _ _ _ _ _ _).trans ?_)
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
